-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S96x96 : Shape := ⟨2, ![96, 96]⟩
abbrev S96 : Shape := ⟨1, ![96]⟩
abbrev S2x800000 : Shape := ⟨2, ![2, 800000]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_

variable [Facts]

def fn_part1 {F : FTy → Type} [FloatOps F] (main_arg4 : FVec F S96 .f32) (main_arg5 : FVec F S96x96 .f32) (main_arg6 : FVec F S96 .f32) (main_v13 : IVec S_ 1) (main_v16 : IVec S96x96 1) : IVec S_ 1 :=
  let main_c_5 : IVec S_ 1 := constantI S_ 1 1#1
  let main_v17 : IVec S_ 1 := (fun x v => Host.reduce IntOp.andi x v reducesTo_S96x96_S_d0_1 h_S_) main_v16 main_c_5
  let main_v18 : IVec S_ 1 := andi main_v13 main_v17
  let main_v19 : FVec F S96 .f32 := Host.absf main_arg4
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  let main_v24 : FVec F S96x96 .f32 := Host.absf main_arg5
  let main_cst_8 : FVec F S_ .f32 := constant S_ .f32 0x7F800000#32
  let main_v25 : FVec F S96x96 .f32 := broadcastInDim S96x96 ![] bcast_S_S96x96 main_cst_8
  let main_v26 : IVec S96x96 1 := cmpf .olt main_v24 main_v25
  let main_c_9 : IVec S_ 1 := constantI S_ 1 1#1
  let main_v27 : IVec S_ 1 := (fun x v => Host.reduce IntOp.andi x v reducesTo_S96x96_S_d0_1 h_S_) main_v26 main_c_9
  let main_v28 : IVec S_ 1 := andi main_v23 main_v27
  let main_v29 : FVec F S96 .f32 := Host.absf main_arg6
  let main_cst_10 : FVec F S_ .f32 := constant S_ .f32 0x7F800000#32
  let main_v30 : FVec F S96 .f32 := broadcastInDim S96 ![] bcast_S_S96 main_cst_10
  let main_v31 : IVec S96 1 := cmpf .olt main_v29 main_v30
  let main_c_11 : IVec S_ 1 := constantI S_ 1 1#1
  let main_v32 : IVec S_ 1 := (fun x v => Host.reduce IntOp.andi x v reducesTo_S96_S_d0 h_S_) main_v31 main_c_11
  let main_v33 : IVec S_ 1 := andi main_v28 main_v32
  main_v33

def fn {F : FTy → Type} [FloatOps F] (main_arg0 : FVec F S50000x96 .f32) (main_arg1 : FVec F S96x96 .f32) (main_arg2 : FVec F S96 .f32) (main_arg3 : FVec F S96x96 .f32) (main_arg4 : FVec F S96 .f32) (main_arg5 : FVec F S96x96 .f32) (main_arg6 : FVec F S96 .f32) (main_arg7 : IVec S2x800000 32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S96x96 .f32 := Host.absf main_arg1
  let main_cst_0 : FVec F S_ .f32 := constant S_ .f32 0x7F800000#32
  let main_v5 : FVec F S96x96 .f32 := broadcastInDim S96x96 ![] bcast_S_S96x96 main_cst_0
  let main_v6 : IVec S96x96 1 := cmpf .olt main_v4 main_v5
  let main_c_1 : IVec S_ 1 := constantI S_ 1 1#1
  let main_v7 : IVec S_ 1 := (fun x v => Host.reduce IntOp.andi x v reducesTo_S96x96_S_d0_1 h_S_) main_v6 main_c_1
  let main_v8 : IVec S_ 1 := andi main_v3 main_v7
  let main_v9 : FVec F S96 .f32 := Host.absf main_arg2
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96x96 .f32 := Host.absf main_arg3
  let main_cst_4 : FVec F S_ .f32 := constant S_ .f32 0x7F800000#32
  let main_v15 : FVec F S96x96 .f32 := broadcastInDim S96x96 ![] bcast_S_S96x96 main_cst_4
  let main_v16 : IVec S96x96 1 := cmpf .olt main_v14 main_v15
  fn_part1 (F := F) main_arg4 main_arg5 main_arg6 main_v13 main_v16
-- ==== Kernel.lean ====
abbrev S50000x96 : Shape := ⟨2, ![50000, 96]⟩
abbrev S96x96 : Shape := ⟨2, ![96, 96]⟩
abbrev S96 : Shape := ⟨1, ![96]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S2000x96 : Shape := ⟨2, ![2000, 96]⟩
abbrev S800000x96 : Shape := ⟨2, ![800000, 96]⟩
abbrev S1x96 : Shape := ⟨2, ![1, 96]⟩
abbrev S2000x1 : Shape := ⟨2, ![2000, 1]⟩

abbrev nBuf : Space → Nat
  | .hbm => 100
  | .vmem => 42
  | .smem => 0
  | _ => 0

abbrev bufTy : (tb : Table) → Fin (tcTables nBuf tb) → BufTy
  | .hbm, ⟨0, _⟩ => ⟨S50000x96, .f32⟩
  | .hbm, ⟨1, _⟩ => ⟨S96x96, .f32⟩
  | .hbm, ⟨2, _⟩ => ⟨S96, .f32⟩
  | .hbm, ⟨3, _⟩ => ⟨S96x96, .f32⟩
  | .hbm, ⟨4, _⟩ => ⟨S96, .f32⟩
  | .hbm, ⟨5, _⟩ => ⟨S96x96, .f32⟩
  | .hbm, ⟨6, _⟩ => ⟨S96, .f32⟩
  | .hbm, ⟨7, _⟩ => ⟨S2x800000, .i32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000, .f32⟩
  | .hbm, ⟨40, _⟩ => ⟨S800000, .f32⟩
  | .hbm, ⟨41, _⟩ => ⟨S50000, .f32⟩
  | .hbm, ⟨42, _⟩ => ⟨S50000x1, .f32⟩
  | .hbm, ⟨43, _⟩ => ⟨S50000x96, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x96, .f32⟩
  | .hbm, ⟨53, _⟩ => ⟨S800000x1, .f32⟩
  | .hbm, ⟨54, _⟩ => ⟨S800000x96, .f32⟩
  | .hbm, ⟨55, _⟩ => ⟨S800000x96, .f32⟩
  | .hbm, ⟨56, _⟩ => ⟨S_, .f32⟩
  | .hbm, ⟨57, _⟩ => ⟨S50000x96, .f32⟩
  | .hbm, ⟨58, _⟩ => ⟨S800000x1, .i32⟩
  | .hbm, ⟨59, _⟩ => ⟨S50000x96, .f32⟩
  | .hbm, ⟨60, _⟩ => ⟨S1x96, .f32⟩
  | .hbm, ⟨61, _⟩ => ⟨S50000x96, .f32⟩
  | .hbm, ⟨62, _⟩ => ⟨S50000x96, .f32⟩
  | .hbm, ⟨63, _⟩ => ⟨S_, .i32⟩
  | .hbm, ⟨64, _⟩ => ⟨S800000, .i32⟩
  | .hbm, ⟨65, _⟩ => ⟨S800000, .i1⟩
  | .hbm, ⟨66, _⟩ => ⟨S_, .i32⟩
  | .hbm, ⟨67, _⟩ => ⟨S800000, .i32⟩
  | .hbm, ⟨68, _⟩ => ⟨S800000, .i32⟩
  | .hbm, ⟨69, _⟩ => ⟨S800000, .i32⟩
  | .hbm, ⟨70, _⟩ => ⟨S800000x1, .i32⟩
  | .hbm, ⟨71, _⟩ => ⟨S800000x96, .f32⟩
  | .hbm, ⟨72, _⟩ => ⟨S800000x1, .f32⟩
  | .hbm, ⟨73, _⟩ => ⟨S800000x96, .f32⟩
  | .hbm, ⟨74, _⟩ => ⟨S800000x96, .f32⟩
  | .hbm, ⟨75, _⟩ => ⟨S_, .f32⟩
  | .hbm, ⟨76, _⟩ => ⟨S50000x96, .f32⟩
  | .hbm, ⟨77, _⟩ => ⟨S800000x1, .i32⟩
  | .hbm, ⟨78, _⟩ => ⟨S50000x96, .f32⟩
  | .hbm, ⟨79, _⟩ => ⟨S1x96, .f32⟩
  | .hbm, ⟨80, _⟩ => ⟨S50000x96, .f32⟩
  | .hbm, ⟨81, _⟩ => ⟨S50000x96, .f32⟩
  | .hbm, ⟨82, _⟩ => ⟨S_, .i32⟩
  | .hbm, ⟨83, _⟩ => ⟨S800000, .i32⟩
  | .hbm, ⟨84, _⟩ => ⟨S800000, .i1⟩
  | .hbm, ⟨85, _⟩ => ⟨S_, .i32⟩
  | .hbm, ⟨86, _⟩ => ⟨S800000, .i32⟩
  | .hbm, ⟨87, _⟩ => ⟨S800000, .i32⟩
  | .hbm, ⟨88, _⟩ => ⟨S800000, .i32⟩
  | .hbm, ⟨89, _⟩ => ⟨S800000x1, .i32⟩
  | .hbm, ⟨90, _⟩ => ⟨S800000x96, .f32⟩
  | .hbm, ⟨91, _⟩ => ⟨S800000x1, .f32⟩
  | .hbm, ⟨92, _⟩ => ⟨S800000x96, .f32⟩
  | .hbm, ⟨93, _⟩ => ⟨S800000x96, .f32⟩
  | .hbm, ⟨94, _⟩ => ⟨S_, .f32⟩
  | .hbm, ⟨95, _⟩ => ⟨S50000x96, .f32⟩
  | .hbm, ⟨96, _⟩ => ⟨S800000x1, .i32⟩
  | .hbm, ⟨97, _⟩ => ⟨S50000x96, .f32⟩
  | .hbm, ⟨98, _⟩ => ⟨S1x96, .f32⟩
  | .hbm, ⟨99, _⟩ => ⟨S50000x96, .f32⟩
  | .local _ .vmem, ⟨0, _⟩ => ⟨S2000x96, .f32⟩
  | .local _ .vmem, ⟨1, _⟩ => ⟨S2000x96, .f32⟩
  | .local _ .vmem, ⟨2, _⟩ => ⟨S96x96, .f32⟩
  | .local _ .vmem, ⟨3, _⟩ => ⟨S2000x96, .f32⟩
  | .local _ .vmem, ⟨4, _⟩ => ⟨S2000x96, .f32⟩
  | .local _ .vmem, ⟨5, _⟩ => ⟨S2000x96, .f32⟩
  | .local _ .vmem, ⟨6, _⟩ => ⟨S2000x96, .f32⟩
  | .local _ .vmem, ⟨7, _⟩ => ⟨S2000x96, .f32⟩
  | .local _ .vmem, ⟨8, _⟩ => ⟨S2000x96, .f32⟩
  | .local _ .vmem, ⟨9, _⟩ => ⟨S2000x1, .f32⟩
  | .local _ .vmem, ⟨10, _⟩ => ⟨S2000x1, .f32⟩
  | .local _ .vmem, ⟨11, _⟩ => ⟨S1x96, .f32⟩
  | .local _ .vmem, ⟨12, _⟩ => ⟨S2000x96, .f32⟩
  | .local _ .vmem, ⟨13, _⟩ => ⟨S2000x96, .f32⟩
  | .local _ .vmem, ⟨14, _⟩ => ⟨S2000x96, .f32⟩
  | .local _ .vmem, ⟨15, _⟩ => ⟨S2000x96, .f32⟩
  | .local _ .vmem, ⟨16, _⟩ => ⟨S96x96, .f32⟩
  | .local _ .vmem, ⟨17, _⟩ => ⟨S2000x96, .f32⟩
  | .local _ .vmem, ⟨18, _⟩ => ⟨S2000x96, .f32⟩
  | .local _ .vmem, ⟨19, _⟩ => ⟨S2000x96, .f32⟩
  | .local _ .vmem, ⟨20, _⟩ => ⟨S2000x96, .f32⟩
  | .local _ .vmem, ⟨21, _⟩ => ⟨S2000x96, .f32⟩
  | .local _ .vmem, ⟨22, _⟩ => ⟨S2000x96, .f32⟩
  | .local _ .vmem, ⟨23, _⟩ => ⟨S2000x1, .f32⟩
  | .local _ .vmem, ⟨24, _⟩ => ⟨S2000x1, .f32⟩
  | .local _ .vmem, ⟨25, _⟩ => ⟨S1x96, .f32⟩
  | .local _ .vmem, ⟨26, _⟩ => ⟨S2000x96, .f32⟩
  | .local _ .vmem, ⟨27, _⟩ => ⟨S2000x96, .f32⟩
  | .local _ .vmem, ⟨28, _⟩ => ⟨S2000x96, .f32⟩
  | .local _ .vmem, ⟨29, _⟩ => ⟨S2000x96, .f32⟩
  | .local _ .vmem, ⟨30, _⟩ => ⟨S96x96, .f32⟩
  | .local _ .vmem, ⟨31, _⟩ => ⟨S2000x96, .f32⟩
  | .local _ .vmem, ⟨32, _⟩ => ⟨S2000x96, .f32⟩
  | .local _ .vmem, ⟨33, _⟩ => ⟨S2000x96, .f32⟩
  | .local _ .vmem, ⟨34, _⟩ => ⟨S2000x96, .f32⟩
  | .local _ .vmem, ⟨35, _⟩ => ⟨S2000x96, .f32⟩
  | .local _ .vmem, ⟨36, _⟩ => ⟨S2000x96, .f32⟩
  | .local _ .vmem, ⟨37, _⟩ => ⟨S2000x1, .f32⟩
  | .local _ .vmem, ⟨38, _⟩ => ⟨S2000x1, .f32⟩
  | .local _ .vmem, ⟨39, _⟩ => ⟨S1x96, .f32⟩
  | .local _ .vmem, ⟨40, _⟩ => ⟨S2000x96, .f32⟩
  | .local _ .vmem, ⟨41, _⟩ => ⟨S2000x96, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_8 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_11 : Ref sig .tc := ⟨.hbm, 82, rfl⟩
abbrev main_v61 : Ref sig .tc := ⟨.hbm, 83, rfl⟩
abbrev main_v62 : Ref sig .tc := ⟨.hbm, 84, rfl⟩
abbrev main_c_12 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_13 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc5_stg0_0 : Ref sig .tc := ⟨.vmem, 33, rfl⟩
abbrev cc5_stg0_1 : Ref sig .tc := ⟨.vmem, 34, rfl⟩
abbrev cc5_stg1_0 : Ref sig .tc := ⟨.vmem, 35, rfl⟩
abbrev cc5_stg1_1 : Ref sig .tc := ⟨.vmem, 36, rfl⟩
abbrev cc5_stg2_0 : Ref sig .tc := ⟨.vmem, 37, rfl⟩
abbrev cc5_stg2_1 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg4_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc5_sem0_0 : DmaSem sig := 33
abbrev cc5_sem0_1 : DmaSem sig := 34
abbrev cc5_sem1_0 : DmaSem sig := 35
abbrev cc5_sem1_1 : DmaSem sig := 36
abbrev cc5_sem2_0 : DmaSem sig := 37
abbrev cc5_sem2_1 : DmaSem sig := 38
abbrev cc5_sem3_0 : DmaSem sig := 39
abbrev cc5_sem4_0 : DmaSem sig := 40
abbrev cc5_sem4_1 : DmaSem sig := 41

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x96 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S96x96 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x96 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x96 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x96 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x96 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x96 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x96 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S96x96 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x96 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x96 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x96 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x96 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x96 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S2000x96_S2000x96_0_0 : ∀ a, (![0, 0] : Fin 2 → Nat) a + S2000x96.size a ≤ S2000x96.size a
  h_S2000x96 : 0 < S2000x96.numel
  bitsLt_bf16_f32 : FTy.bits .bf16 < FTy.bits .f32
  inb_S96x96_S96x96_0_0 : ∀ a, (![0, 0] : Fin 2 → Nat) a + S96x96.size a ≤ S96x96.size a
  h_S96x96 : 0 < S96x96.numel
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  shapeCasts_S96_S1x96 : S96.ShapeCasts S1x96
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S1x96_S1x96_0_0 : ∀ a, (![0, 0] : Fin 2 → Nat) a + S1x96.size a ≤ S1x96.size a
  h_S1x96 : 0 < S1x96.numel
  shapeCasts_S1x96_S1x96 : S1x96.ShapeCasts S1x96
  shapeCasts_S2000x96_S2000x96 : S2000x96.ShapeCasts S2000x96
  broadcasts_S2000x1_S2000x96 : S2000x1.Broadcasts S2000x96
  broadcasts_S1x96_S2000x96 : S1x96.Broadcasts S2000x96
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x96_S96x96_S2000x96_1_0_0_1_n_n_wf : DotDims.WF S2000x96 S96x96 S2000x96 [1] [0] [0] [1] [] []
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x96.size a ≤ S50000x96.size a
  hwx0_0 : ∀ i : grid0.Coords, EltTy.bits .f32 = 32 ∨ (Rect.block (s := S50000x96) S2000x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x96.size a ≤ S96x96.size a
  hwx0_1 : ∀ i : grid0.Coords, EltTy.bits .f32 = 32 ∨ (Rect.block (s := S96x96) S96x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x96.size a ≤ S50000x96.size a
  hwx0_2 : ∀ i : grid0.Coords, EltTy.bits .f32 = 32 ∨ (Rect.block (s := S50000x96) S2000x96.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x96.size a ≤ S50000x96.size a
  hwx1_0 : ∀ i : grid1.Coords, EltTy.bits .f32 = 32 ∨ (Rect.block (s := S50000x96) S2000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x96.size a ≤ S50000x96.size a
  hwx1_1 : ∀ i : grid1.Coords, EltTy.bits .f32 = 32 ∨ (Rect.block (s := S50000x96) S2000x96.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x96.size a ≤ S1x96.size a
  hwx1_3 : ∀ i : grid1.Coords, EltTy.bits .f32 = 32 ∨ (Rect.block (s := S1x96) S1x96.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x96.size a ≤ S50000x96.size a
  hwx1_4 : ∀ i : grid1.Coords, EltTy.bits .f32 = 32 ∨ (Rect.block (s := S50000x96) S2000x96.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x96.size a ≤ S50000x96.size a
  hwx2_0 : ∀ i : grid2.Coords, EltTy.bits .f32 = 32 ∨ (Rect.block (s := S50000x96) S2000x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S96x96.size a ≤ S96x96.size a
  hwx2_1 : ∀ i : grid2.Coords, EltTy.bits .f32 = 32 ∨ (Rect.block (s := S96x96) S96x96.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x96.size a ≤ S50000x96.size a
  hwx2_2 : ∀ i : grid2.Coords, EltTy.bits .f32 = 32 ∨ (Rect.block (s := S50000x96) S2000x96.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x96.size a ≤ S50000x96.size a
  hwx3_0 : ∀ i : grid3.Coords, EltTy.bits .f32 = 32 ∨ (Rect.block (s := S50000x96) S2000x96.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x96.size a ≤ S50000x96.size a
  hwx3_1 : ∀ i : grid3.Coords, EltTy.bits .f32 = 32 ∨ (Rect.block (s := S50000x96) S2000x96.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x96.size a ≤ S1x96.size a
  hwx3_3 : ∀ i : grid3.Coords, EltTy.bits .f32 = 32 ∨ (Rect.block (s := S1x96) S1x96.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x96.size a ≤ S50000x96.size a
  hwx3_4 : ∀ i : grid3.Coords, EltTy.bits .f32 = 32 ∨ (Rect.block (s := S50000x96) S2000x96.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x96.size a ≤ S50000x96.size a
  hwx4_0 : ∀ i : grid4.Coords, EltTy.bits .f32 = 32 ∨ (Rect.block (s := S50000x96) S2000x96.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S96x96.size a ≤ S96x96.size a
  hwx4_1 : ∀ i : grid4.Coords, EltTy.bits .f32 = 32 ∨ (Rect.block (s := S96x96) S96x96.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x96.size a ≤ S50000x96.size a
  hwx4_2 : ∀ i : grid4.Coords, EltTy.bits .f32 = 32 ∨ (Rect.block (s := S50000x96) S2000x96.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x96.size a ≤ S50000x96.size a
  hwx5_0 : ∀ i : grid5.Coords, EltTy.bits .f32 = 32 ∨ (Rect.block (s := S50000x96) S2000x96.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x96.size a ≤ S50000x96.size a
  hwx5_1 : ∀ i : grid5.Coords, EltTy.bits .f32 = 32 ∨ (Rect.block (s := S50000x96) S2000x96.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S50000x1.size a
  hwx5_2 : ∀ i : grid5.Coords, EltTy.bits .f32 = 32 ∨ (Rect.block (s := S50000x1) S2000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x96.size a ≤ S1x96.size a
  hwx5_3 : ∀ i : grid5.Coords, EltTy.bits .f32 = 32 ∨ (Rect.block (s := S1x96) S1x96.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x96.size a ≤ S50000x96.size a
  hwx5_4 : ∀ i : grid5.Coords, EltTy.bits .f32 = 32 ∨ (Rect.block (s := S50000x96) S2000x96.size (cc5_transform_4 i) (hinb5_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x96_S96x96_S2000x96_1_0_0_1_n_n : DotDims S2000x96 S96x96 S2000x96 where
  lhsContracting := [1]
  rhsContracting := [0]
  lhsNonContracting := [0]
  rhsNonContracting := [1]
  lhsBatch := []
  rhsBatch := []
  wf := dot_S2000x96_S96x96_S2000x96_1_0_0_1_n_n_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf

abbrev win0_0 : Pipeline.Window sig grid0 :=
  Pipeline.Window.ofSpec (Memref.whole main_arg0) S2000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S96x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v28) S2000x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v41) S2000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S2000x96.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S2000x96.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v43) S2000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S96x96.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S2000x96.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v57) S2000x96.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S2000x96.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x96.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S2000x96.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v59) S2000x96.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S96x96.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v60) S2000x96.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v73) S2000x96.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v60) S2000x96.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v27) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v74) S1x96.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v75) S2000x96.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

class Facts : Prop extends Facts₀ where

variable [Facts]
-- ==== ReferenceIdeal.lean ====
abbrev S50000x96 : Shape := ⟨2, ![50000, 96]⟩
abbrev S96x96 : Shape := ⟨2, ![96, 96]⟩
abbrev S96 : Shape := ⟨1, ![96]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x96 : Shape := ⟨2, ![800000, 96]⟩
abbrev S50000x1 : Shape := ⟨2, ![50000, 1]⟩
abbrev S1x96 : Shape := ⟨2, ![1, 96]⟩

abbrev nBuf : Space → Nat
  | .hbm => 180
  | .vmem => 0
  | .smem => 0
  | _ => 0

abbrev hbmTy0_0 (i : Nat) : BufTy := match i % 128 with
  | 0 => ⟨S50000x96, .f32⟩
  | 1 => ⟨S96x96, .f32⟩
  | 2 => ⟨S96, .f32⟩
  | 3 => ⟨S96x96, .f32⟩
  | 4 => ⟨S96, .f32⟩
  | 5 => ⟨S96x96, .f32⟩
  | 6 => ⟨S96, .f32⟩
  | 7 => ⟨S2x800000, .i32⟩
  | 8 => ⟨S1x800000, .i32⟩
  | 9 => ⟨S800000, .i32⟩
  | 10 => ⟨S1x800000, .i32⟩
  | 11 => ⟨S800000, .i32⟩
  | 12 => ⟨S50000x96, .f32⟩
  | 13 => ⟨S_, .f32⟩
  | 14 => ⟨S800000, .f32⟩
  | 15 => ⟨S_, .f32⟩
  | 16 => ⟨S50000, .f32⟩
  | 17 => ⟨S800000x1, .i32⟩
  | 18 => ⟨S50000, .f32⟩
  | 19 => ⟨S_, .f32⟩
  | 20 => ⟨S50000, .f32⟩
  | 21 => ⟨S50000, .f32⟩
  | 22 => ⟨S50000, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .f32⟩
  | 41 => ⟨S800000, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x96, .f32⟩
  | 51 => ⟨S800000x1, .f32⟩
  | 52 => ⟨S800000x96, .f32⟩
  | 53 => ⟨S800000x96, .f32⟩
  | 54 => ⟨S_, .f32⟩
  | 55 => ⟨S50000x96, .f32⟩
  | 56 => ⟨S800000x1, .i32⟩
  | 57 => ⟨S50000x96, .f32⟩
  | 58 => ⟨S50000, .f32⟩
  | 59 => ⟨S50000x1, .f32⟩
  | 60 => ⟨S50000x96, .f32⟩
  | 61 => ⟨S50000x96, .f32⟩
  | 62 => ⟨S50000x96, .f32⟩
  | 63 => ⟨S1x96, .f32⟩
  | 64 => ⟨S50000x96, .f32⟩
  | 65 => ⟨S50000x96, .f32⟩
  | 66 => ⟨S_, .f32⟩
  | 67 => ⟨S50000x96, .f32⟩
  | 68 => ⟨S50000x96, .f32⟩
  | 69 => ⟨S50000x96, .f32⟩
  | 70 => ⟨S_, .f32⟩
  | 71 => ⟨S800000, .f32⟩
  | 72 => ⟨S_, .f32⟩
  | 73 => ⟨S50000, .f32⟩
  | 74 => ⟨S800000x1, .i32⟩
  | 75 => ⟨S50000, .f32⟩
  | 76 => ⟨S_, .f32⟩
  | 77 => ⟨S50000, .f32⟩
  | 78 => ⟨S50000, .f32⟩
  | 79 => ⟨S50000, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000, .f32⟩
  | 98 => ⟨S800000, .f32⟩
  | 99 => ⟨S_, .i32⟩
  | 100 => ⟨S800000, .i32⟩
  | 101 => ⟨S800000, .i1⟩
  | 102 => ⟨S_, .i32⟩
  | 103 => ⟨S800000, .i32⟩
  | 104 => ⟨S800000, .i32⟩
  | 105 => ⟨S800000, .i32⟩
  | 106 => ⟨S800000x1, .i32⟩
  | 107 => ⟨S800000x96, .f32⟩
  | 108 => ⟨S800000x1, .f32⟩
  | 109 => ⟨S800000x96, .f32⟩
  | 110 => ⟨S800000x96, .f32⟩
  | 111 => ⟨S_, .f32⟩
  | 112 => ⟨S50000x96, .f32⟩
  | 113 => ⟨S800000x1, .i32⟩
  | 114 => ⟨S50000x96, .f32⟩
  | 115 => ⟨S50000, .f32⟩
  | 116 => ⟨S50000x1, .f32⟩
  | 117 => ⟨S50000x96, .f32⟩
  | 118 => ⟨S50000x96, .f32⟩
  | 119 => ⟨S50000x96, .f32⟩
  | 120 => ⟨S1x96, .f32⟩
  | 121 => ⟨S50000x96, .f32⟩
  | 122 => ⟨S50000x96, .f32⟩
  | 123 => ⟨S_, .f32⟩
  | 124 => ⟨S50000x96, .f32⟩
  | 125 => ⟨S50000x96, .f32⟩
  | 126 => ⟨S50000x96, .f32⟩
  | 127 => ⟨S_, .f32⟩
  | _ => ⟨S50000x96, .f32⟩

abbrev hbmTy0_1 (i : Nat) : BufTy := match i % 128 with
  | 0 => ⟨S800000, .f32⟩
  | 1 => ⟨S_, .f32⟩
  | 2 => ⟨S50000, .f32⟩
  | 3 => ⟨S800000x1, .i32⟩
  | 4 => ⟨S50000, .f32⟩
  | 5 => ⟨S_, .f32⟩
  | 6 => ⟨S50000, .f32⟩
  | 7 => ⟨S50000, .f32⟩
  | 8 => ⟨S50000, .f32⟩
  | 9 => ⟨S_, .i32⟩
  | 10 => ⟨S800000, .i32⟩
  | 11 => ⟨S800000, .i1⟩
  | 12 => ⟨S_, .i32⟩
  | 13 => ⟨S800000, .i32⟩
  | 14 => ⟨S800000, .i32⟩
  | 15 => ⟨S800000, .i32⟩
  | 16 => ⟨S800000x1, .i32⟩
  | 17 => ⟨S800000, .f32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000, .f32⟩
  | 27 => ⟨S800000, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x96, .f32⟩
  | 37 => ⟨S800000x1, .f32⟩
  | 38 => ⟨S800000x96, .f32⟩
  | 39 => ⟨S800000x96, .f32⟩
  | 40 => ⟨S_, .f32⟩
  | 41 => ⟨S50000x96, .f32⟩
  | 42 => ⟨S800000x1, .i32⟩
  | 43 => ⟨S50000x96, .f32⟩
  | 44 => ⟨S50000, .f32⟩
  | 45 => ⟨S50000x1, .f32⟩
  | 46 => ⟨S50000x96, .f32⟩
  | 47 => ⟨S50000x96, .f32⟩
  | 48 => ⟨S50000x96, .f32⟩
  | 49 => ⟨S1x96, .f32⟩
  | 50 => ⟨S50000x96, .f32⟩
  | 51 => ⟨S50000x96, .f32⟩
  | _ => ⟨S50000x96, .f32⟩

abbrev hbmTy (i : Nat) : BufTy := match i / 128 with
  | 0 => hbmTy0_0 i
  | 1 => hbmTy0_1 i
  | _ => ⟨S50000x96, .f32⟩

abbrev bufTy : (tb : Table) → Fin (tcTables nBuf tb) → BufTy
  | .hbm, ⟨i, _⟩ => hbmTy i
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_c_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_15 : Ref sig .tc := ⟨.hbm, 99, rfl⟩
abbrev main_v72 : Ref sig .tc := ⟨.hbm, 100, rfl⟩
abbrev main_v73 : Ref sig .tc := ⟨.hbm, 101, rfl⟩
abbrev main_c_16 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_17 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_call1_cst : Ref sig .tc := ⟨.hbm, 123, rfl⟩
abbrev main_call1_v0 : Ref sig .tc := ⟨.hbm, 124, rfl⟩
abbrev main_v93 : Ref sig .tc := ⟨.hbm, 125, rfl⟩
abbrev main_v94 : Ref sig .tc := ⟨.hbm, 126, rfl⟩
abbrev main_cst_18 : Ref sig .tc := ⟨.hbm, 127, rfl⟩
abbrev main_v95 : Ref sig .tc := ⟨.hbm, 128, rfl⟩
abbrev main_cst_19 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_cst_20 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_c_21 : Ref sig .tc := ⟨.hbm, 137, rfl⟩
abbrev main_v102 : Ref sig .tc := ⟨.hbm, 138, rfl⟩
abbrev main_v103 : Ref sig .tc := ⟨.hbm, 139, rfl⟩
abbrev main_c_22 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_c_23 : Ref sig .tc := ⟨.hbm, 146, rfl⟩
abbrev main_v109 : Ref sig .tc := ⟨.hbm, 147, rfl⟩
abbrev main_v110 : Ref sig .tc := ⟨.hbm, 148, rfl⟩
abbrev main_c_24 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_c_25 : Ref sig .tc := ⟨.hbm, 156, rfl⟩
abbrev main_v117 : Ref sig .tc := ⟨.hbm, 157, rfl⟩
abbrev main_v118 : Ref sig .tc := ⟨.hbm, 158, rfl⟩
abbrev main_c_26 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_cst_27 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x96_0_1 : S800000x1.BroadcastsInDim S800000x96 (![0, 1] : Fin 2 → Fin S800000x96.rank)
  bcast_S_S50000x96 : S_.BroadcastsInDim S50000x96 (![] : Fin 0 → Fin S50000x96.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  dot_S50000x96_S96x96_S50000x96_1_0_0_1_n_n_wf : DotDims.WF S50000x96 S96x96 S50000x96 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1

variable [Facts₀]

def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf

class Facts : Prop extends Facts₀ where

variable [Facts]
-- ==== Proof.KernelRun.lean ====
/-
  The idealized kernel program's run, with its result named.

  The program is ten segments: four stretches of host operations and six pipelined kernel regions. The contents
  of the TensorCore's buffers at each segment boundary are a fold through the program from the launch memory: a
  stretch of host operations applies those operations in order, a region leaves each of its arrays at what its
  write-backs leave and every other buffer as it found it. Every weakly fair execution terminates without a
  fault with EVERY unscoped buffer at the last boundary's contents; the argument arrays are read back through
  the fold to the launch memory, and the result array is read at the last boundary's contents, by name.
-/
import proofs.«178449_j31301721653775_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result array ends at the last
    boundary's contents and the argument arrays as launched. -/
theorem run : θ_run defs (onTc (τ := τ) (main (F := F))) ⟨m, fun _ => 0, ρ⟩ (fun r => ∀ c : Dev nD,
      r.2.mem ((c.tc : Thread nD τ).loc main_v75) = W10 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v75 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.RunValue

end
-- ==== Proof.LibPlainDot.lean ====
/-
  General facts, at the extended reals, about a two-dimensional matrix product whose dimension numbers contract
  the left operand's second axis with the right operand's first (no batch axis).

  * A matrix unit's product of operands first cast to a narrower float format, accumulated into the zero splat,
    IS the host's dot_general of the uncast operands under the same dimension numbers: at each output index both
    are the sum over the contraction index of the products of the operands' entries, the casts being the identity
    and the zero accumulator adding nothing.
  * That sum, indexed by the dimension numbers' own contraction index, is the textbook sum over k < K of
    l(r, k) · r(k, c): the contraction index of a one-axis contraction is its one coordinate, and the operand
    indices at (r, c) and k are (r, k) and (k, c) — the four coordinate facts are hypotheses, discharged per record
    from the dimension numbers.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

/-- Into the zero splat, after narrowing casts of both operands, the matrix unit's product is the host's
    dot_general of the operands themselves (same dimension numbers, any precision word): index by index both are
    the contraction's sum of products. -/
theorem matmul_truncf_zero_eq_dotGeneral {sl sr so : Shape} {φ₁ φ₂ ψ₁ ψ₂ : FTy} (d : DotDims sl sr so)
    (prec : Option ContractPrecision) (l : FVec Ideal sl φ₁) (r : FVec Ideal sr φ₂)
    (h₁ : ψ₁.bits < φ₁.bits) (h₂ : ψ₂.bits < φ₂.bits) :
    matmul d prec (truncf ψ₁ l h₁) (truncf ψ₂ r h₂) (constant so .f32 0x00000000#32) = Host.dotGeneral d prec l r :=
  funext fun j =>
    ((Ideal.matmul_constant_zero_apply d prec (truncf ψ₁ l h₁) (truncf ψ₂ r h₂) j).trans
      (Finset.sum_congr rfl fun _ _ => rfl)).trans (Ideal.dotGeneral_apply d prec .single l r j).symm

/-- The contraction's sum at output index (r, c), re-indexed by the contracted coordinate k < K:
    the sum of l(r, k) · r(k, c). -/
theorem contraction_sum {M K N : Nat} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : (⟨2, ![M, K]⟩ : Shape).Idx → EReal) (r : (⟨2, ![K, N]⟩ : Shape).Idx → EReal) (a : Fin M) (c : Fin N) :
    ∑ q : d.contr.Idx, l (d.lhsIdx (ix2 a c) q) * r (d.rhsIdx (ix2 a c) q) = ∑ k : Fin K, l (ix2 a k) * r (ix2 k c) := by
  rw [← Equiv.sum_comp (contrEquiv1 d K hr hs).symm]
  refine Finset.sum_congr rfl fun k _ => ?_
  have hk := contrEquiv1_symm_val d K hr hs k
  have el : d.lhsIdx (ix2 a c) ((contrEquiv1 d K hr hs).symm k) = ix2 a k := funext fun x => Fin.ext (by
    match x with
    | ⟨0, _⟩ => exact hl0 _ _
    | ⟨1, _⟩ => exact (hl1 _ _).trans hk)
  have er : d.rhsIdx (ix2 a c) ((contrEquiv1 d K hr hs).symm k) = ix2 k c := funext fun x => Fin.ext (by
    match x with
    | ⟨0, _⟩ => exact (hr0 _ _).trans hk
    | ⟨1, _⟩ => exact hr1 _ _)
  rw [el, er]

/-- The host's dot_general at output index (r, c): the sum over k < K of l(r, k) · r(k, c). -/
theorem dotGeneral_apply_ix2 {M K N : Nat} {φ₁ φ₂ : FTy} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (l : FVec Ideal ⟨2, ![M, K]⟩ φ₁) (r : FVec Ideal ⟨2, ![K, N]⟩ φ₂) (a : Fin M) (c : Fin N) :
    Host.dotGeneral d prec l r (ix2 a c) = ∑ k : Fin K, l (ix2 a k) * r (ix2 k c) :=
  (Ideal.dotGeneral_apply d prec .single l r (ix2 a c)).trans (contraction_sum d hr hs hl0 hl1 hr0 hr1 l r a c)

/-- A sum over k < K₁ + K₂ splits at K₁ (any commutative monoid: no finiteness is asked of the terms). -/
theorem sum_split {A : Type*} [AddCommMonoid A] (K₁ K₂ : Nat) (f : Fin (K₁ + K₂) → A) :
    ∑ k : Fin (K₁ + K₂), f k = ∑ k : Fin K₁, f (Fin.castAdd K₂ k) + ∑ k : Fin K₂, f (Fin.natAdd K₁ k) :=
  Fin.sum_univ_add f

end Cert.Lib.PlainDot

end
-- ==== Proof.LibDenseLayer.lean ====
/-
  A dense layer at the extended reals, read one block of rows at a time.

  A matrix of M rows is cut into blocks of Mb consecutive rows. Every operation of a dense layer — a rows-by-columns
  product with a fixed right factor, an entrywise sum or maximum, the addition of one bias row to every row, a
  constant matrix — acts on each row by itself, so what it makes of a block of rows is the same block of rows of
  what it makes of the whole matrix. `RowBlk off xb X` says that `xb` is the block of `X` that starts at row
  `off`; the lemmas below carry that relation through each operation. No finiteness is asked of any entry: the
  two sides are the same sums of the same products.
-/
import Idealize.ShloMosaic.PureOps.Ideal.Laws
import Idealize.ShloMosaic.Lib.ValueIdx
import Idealize.ShloMosaic.Lib.Pipeline.Value
import proofs.«178449_j31301721653775_1_alg».proof.Proof.LibPlainDot

noncomputable section

open scoped BigOperators

namespace Cert.Lib.DenseLayer

open Idealize.ShloMosaic Idealize.ShloMosaic.ValueIdx Cert.Lib.PlainDot

/-- A rank-2 record that contracts the left operand's second axis with the right operand's first and has no
    batch axis: the six facts that read it as the textbook product. -/
structure Plain {M K N : Nat} (d : DotDims ⟨2, ![M, K]⟩ ⟨2, ![K, N]⟩ ⟨2, ![M, N]⟩) : Prop where
  rank : d.contr.rank = 1
  size : d.contr.size ⟨0, by omega⟩ = K
  l0 : ∀ (i : (⟨2, ![M, N]⟩ : Shape).Idx) (q : d.contr.Idx), (d.lhsIdx i q 0).val = (i 0).val
  l1 : ∀ (i : (⟨2, ![M, N]⟩ : Shape).Idx) (q : d.contr.Idx), (d.lhsIdx i q 1).val = (q ⟨0, by omega⟩).val
  r0 : ∀ (i : (⟨2, ![M, N]⟩ : Shape).Idx) (q : d.contr.Idx), (d.rhsIdx i q 0).val = (q ⟨0, by omega⟩).val
  r1 : ∀ (i : (⟨2, ![M, N]⟩ : Shape).Idx) (q : d.contr.Idx), (d.rhsIdx i q 1).val = (i 1).val

/-- The product at entry (r, c) is the sum over k of l(r, k) · w(k, c). -/
theorem Plain.dot_apply {M K N : Nat} {d : DotDims ⟨2, ![M, K]⟩ ⟨2, ![K, N]⟩ ⟨2, ![M, N]⟩} (hd : Plain d)
    (l : FVec Ideal ⟨2, ![M, K]⟩ .f32) (w : FVec Ideal ⟨2, ![K, N]⟩ .f32) (r : Fin M) (c : Fin N) :
    Host.dotGeneral d none l w (ix2 r c) = ∑ k : Fin K, l (ix2 r k) * w (ix2 k c) :=
  dotGeneral_apply_ix2 d hd.rank hd.size hd.l0 hd.l1 hd.r0 hd.r1 none l w r c

/-- `xb` is the block of `Mb` rows of `X` that starts at row `off`. -/
def RowBlk {Mb M K : Nat} (off : Nat) (xb : (⟨2, ![Mb, K]⟩ : Shape).Idx → EReal) (X : (⟨2, ![M, K]⟩ : Shape).Idx → EReal) : Prop :=
  ∀ (r : Fin Mb) (h : off + r.val < M) (k : Fin K), xb (ix2 r k) = X (ix2 ⟨off + r.val, h⟩ k)

/-- A block of rows times a matrix is the block of rows of the product. -/
theorem RowBlk.dot {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh)
    {xb : FVec Ideal ⟨2, ![Mb, K]⟩ .f32} {X : FVec Ideal ⟨2, ![M, K]⟩ .f32} (h : RowBlk off xb X)
    (w : FVec Ideal ⟨2, ![K, N]⟩ .f32) :
    RowBlk off (Host.dotGeneral db none xb w) (Host.dotGeneral dh none X w) := fun r hr c => by
  rw [hb.dot_apply, hh.dot_apply]
  exact Finset.sum_congr rfl fun k _ => congrArg (· * w (ix2 k c)) (h r hr k)

/-- The matrix unit's product of narrowed operands into the zero matrix, on a block of rows. -/
theorem RowBlk.matmul {Mb M K N : Nat} {off : Nat} {db : DotDims ⟨2, ![Mb, K]⟩ ⟨2, ![K, N]⟩ ⟨2, ![Mb, N]⟩}
    {dh : DotDims ⟨2, ![M, K]⟩ ⟨2, ![K, N]⟩ ⟨2, ![M, N]⟩} (hb : Plain db) (hh : Plain dh)
    {xb : FVec Ideal ⟨2, ![Mb, K]⟩ .f32} {X : FVec Ideal ⟨2, ![M, K]⟩ .f32} (h : RowBlk off xb X)
    (w : FVec Ideal ⟨2, ![K, N]⟩ .f32) (h₁ : FTy.bf16.bits < FTy.f32.bits) (h₂ : FTy.bf16.bits < FTy.f32.bits) :
    RowBlk off (matmul db none (truncf .bf16 xb h₁) (truncf .bf16 w h₂) (constant ⟨2, ![Mb, N]⟩ .f32 0x00000000#32))
      (Host.dotGeneral dh none X w) := by
  rw [matmul_truncf_zero_eq_dotGeneral]
  exact h.dot hb hh w

/-- Entrywise sums of blocks of rows. -/
theorem RowBlk.add {Mb M K : Nat} {off : Nat} {a b : FVec Ideal ⟨2, ![Mb, K]⟩ .f32} {A B : FVec Ideal ⟨2, ![M, K]⟩ .f32}
    (ha : RowBlk off a A) (hb : RowBlk off b B) : RowBlk off (addf a b) (addf A B) := fun r hr k => by
  rw [addf_apply, addf_apply, ha r hr k, hb r hr k]

/-- Entrywise maxima of blocks of rows. -/
theorem RowBlk.max {Mb M K : Nat} {off : Nat} {a b : FVec Ideal ⟨2, ![Mb, K]⟩ .f32} {A B : FVec Ideal ⟨2, ![M, K]⟩ .f32}
    (ha : RowBlk off a A) (hb : RowBlk off b B) : RowBlk off (maximumf a b) (maximumf A B) := fun r hr k => by
  rw [maximumf_apply, maximumf_apply, ha r hr k, hb r hr k]

/-- Two constant matrices of one value. -/
theorem RowBlk.const {Mb M K : Nat} {off : Nat} {z : (⟨2, ![Mb, K]⟩ : Shape).Idx → EReal} {Z : (⟨2, ![M, K]⟩ : Shape).Idx → EReal}
    (v : EReal) (hz : ∀ i, z i = v) (hZ : ∀ i, Z i = v) : RowBlk off z Z := fun r hr k => (hz _).trans (hZ _).symm

/-- One bias row added to every row: inside the body a broadcast of the row to the block, on the host a
    broadcast along the rows to the whole matrix. -/
theorem RowBlk.bias {Mb M N : Nat} {off : Nat} (b : (⟨2, ![1, N]⟩ : Shape).Idx → EReal)
    (hb : (⟨2, ![1, N]⟩ : Shape).Broadcasts ⟨2, ![Mb, N]⟩)
    (hB : (⟨2, ![1, N]⟩ : Shape).BroadcastsInDim ⟨2, ![M, N]⟩ ![0, 1]) :
    RowBlk off (broadcastTo ⟨2, ![Mb, N]⟩ b hb) (broadcastInDim ⟨2, ![M, N]⟩ ![0, 1] hB b) := fun r hr c => by
  have hc : N = 1 → c.val = 0 := fun e => by have := c.isLt; omega
  rw [broadcastTo_apply b hb (ix2 r c) (ix2 0 c) (fun a => by
        match a with
        | ⟨0, _⟩ => exact (if_pos rfl).symm
        | ⟨1, _⟩ =>
          show c.val = if N = 1 then 0 else c.val
          split
          · exact hc ‹_›
          · rfl),
      broadcastInDim_apply ![0, 1] hB b (ix2 ⟨off + r.val, hr⟩ c) (ix2 0 c) (fun a => by
        match a with
        | ⟨0, _⟩ => exact (if_pos rfl).symm
        | ⟨1, _⟩ =>
          show c.val = if N = 1 then 0 else c.val
          split
          · exact hc ‹_›
          · rfl)]

/-- A block that is the whole matrix (one block, starting at row 0). -/
theorem RowBlk.whole {M K : Nat} (X : (⟨2, ![M, K]⟩ : Shape).Idx → EReal) : RowBlk 0 X X := fun r hr k => by
  have : (⟨0 + r.val, hr⟩ : Fin M) = r := Fin.ext (Nat.zero_add _)
  rw [this]

/-- A vector of n entries made a 1×n row — by a reshape, or by a broadcast along a new unit axis — is one and the
    same row. -/
theorem addUnit_eq_bcast {α : Type} {n : Nat} (hn : n ≠ 1) (b : (⟨1, ![n]⟩ : Shape).Idx → α)
    (hs : (⟨1, ![n]⟩ : Shape).ShapeCasts ⟨2, ![1, n]⟩) (hb : (⟨1, ![n]⟩ : Shape).BroadcastsInDim ⟨2, ![1, n]⟩ ![1]) :
    shapeCast ⟨2, ![1, n]⟩ b hs = broadcastInDim ⟨2, ![1, n]⟩ ![1] hb b := funext fun j =>
  (shapeCast_addUnit_apply ![n] b hs j).trans
    (broadcastInDim_apply ![1] hb b j (fun a => j a.succ) (fun a => by
      match a with
      | ⟨0, _⟩ => exact (if_neg hn).symm)).symm

end Cert.Lib.DenseLayer

end
-- ==== Proof.LibPlainRecord.lean ====
/-
  A rank-2 product record whose dimension numbers are the plain ones — the left operand's second axis contracted with the
  right operand's first, no batch axis, the left rows then the right columns kept — reads as the textbook product:
  its contraction has one axis of extent K, the left operand is read at (row, k) and the right at (k, column).
-/
import proofs.«178449_j31301721653775_1_alg».proof.Proof.LibDenseLayer

noncomputable section

namespace Cert.Lib.DenseLayer

open Idealize.ShloMosaic Idealize.ShloMosaic.ValueIdx

/-- The six coordinate facts from the six lists of the dimension numbers. -/
theorem Plain.of_fields {M K N : Nat} (d : DotDims ⟨2, ![M, K]⟩ ⟨2, ![K, N]⟩ ⟨2, ![M, N]⟩)
    (h1 : d.lhsContracting = [1]) (h2 : d.rhsContracting = [0]) (h3 : d.lhsNonContracting = [0]) (h4 : d.rhsNonContracting = [1])
    (h5 : d.lhsBatch = []) (h6 : d.rhsBatch = []) : Plain d where
  rank := by rw [d.rank_contr, h1]; rfl
  size := by
    have : d.contr = Shape.ofList ([1].map (⟨2, ![M, K]⟩ : Shape).size) := by unfold DotDims.contr; rw [h1]
    rw [show d.contr.size ⟨0, by rw [d.rank_contr, h1]; exact Nat.one_pos⟩ = K from by
      unfold DotDims.contr; simp [h1, Shape.ofList]]
  l0 := fun i q => by
    have key : ∀ (n : Nat) (hn : n < 2), n = 0 → (i ⟨n, hn⟩).val = (i 0).val := fun n hn h0 => by subst h0; rfl
    unfold DotDims.lhsIdx
    simp only [h5, h3, List.not_mem_nil, dite_false, List.mem_singleton, dite_true, Fin.val_cast]
    exact key _ _ (by simp [h5, h3])
  l1 := fun i q => d.lhsIdx_val_of_single h1 i q
  r0 := fun i q => d.rhsIdx_val_of_single h2 i q
  r1 := fun i q => by
    have key : ∀ (n : Nat) (hn : n < 2), n = 1 → (i ⟨n, hn⟩).val = (i 1).val := fun n hn h0 => by subst h0; rfl
    unfold DotDims.rhsIdx
    simp only [h6, h4, List.not_mem_nil, dite_false, List.mem_singleton, dite_true, Fin.val_cast]
    exact key _ _ (by simp [h5, h3, h4])

/-- Entrywise products of blocks of rows. -/
theorem RowBlk.mul {Mb M K : Nat} {off : Nat} {a b : FVec Ideal ⟨2, ![Mb, K]⟩ .f32} {A B : FVec Ideal ⟨2, ![M, K]⟩ .f32}
    (ha : RowBlk off a A) (hb : RowBlk off b B) : RowBlk off (mulf a b) (mulf A B) := fun r hr k => by
  rw [mulf_apply, mulf_apply, ha r hr k, hb r hr k]

/-- A reshape to the same shape changes nothing. -/
theorem RowBlk.castSelf {Mb M K : Nat} {off : Nat} {a : (⟨2, ![Mb, K]⟩ : Shape).Idx → EReal} {A : (⟨2, ![M, K]⟩ : Shape).Idx → EReal}
    (ha : RowBlk off a A) (h : (⟨2, ![Mb, K]⟩ : Shape).ShapeCasts ⟨2, ![Mb, K]⟩) : RowBlk off (shapeCast ⟨2, ![Mb, K]⟩ a h) A := by
  rw [shapeCast_self]; exact ha

/-- An entrywise function of a block of rows. -/
theorem RowBlk.map {Mb M K : Nat} {off : Nat} {a : (⟨2, ![Mb, K]⟩ : Shape).Idx → EReal} {A : (⟨2, ![M, K]⟩ : Shape).Idx → EReal}
    (ha : RowBlk off a A) (f : EReal → EReal) : RowBlk off (fun i => f (a i)) (fun i => f (A i)) := fun r hr k => by
  show f (a (ix2 r k)) = f (A (ix2 ⟨off + r.val, hr⟩ k)); rw [ha r hr k]

end Cert.Lib.DenseLayer

end
-- ==== Proof.LibKeepdimsColumn.lean ====
/-
  A per-row quantity carried back to a matrix's shape through a column.

  A reduction along the columns of an [a, b] matrix leaves a vector of a numbers, one per row. To combine it with the
  matrix again it is reshaped to an [a, 1] column and broadcast along the columns to [a, b]. Entry (p, q) of the
  result is the p-th number, whatever q: the reshape keeps the row-major position p, and the broadcast reads the
  column's only entry of row p. Stated for any extents a and b and any element type; nothing is computed.
-/
import Idealize.ShloMosaic.Lib.Pipeline.Value
import Idealize.ShloMosaic.Lib.ValueIdx

noncomputable section

namespace Cert.Lib.KeepdimsColumn

open Idealize.ShloMosaic Idealize.ShloMosaic.ValueIdx

/-- The [a] → [a, 1] reshape, entry (p, 0): the p-th number. -/
theorem column_cast_at {α : Type} {a : Nat} (u : (⟨1, ![a]⟩ : Shape).Idx → α)
    (h : (⟨1, ![a]⟩ : Shape).ShapeCasts ⟨2, ![a, 1]⟩) (p : Fin a) :
    shapeCast ⟨2, ![a, 1]⟩ u h (ix2 (n0 := a) (n1 := 1) p ⟨0, Nat.one_pos⟩) = u (ix1 p) :=
  shapeCast_apply u h _ (ix1 p) (by
    rw [Shape.rowMajor_val_one, Shape.rowMajor_val_two]
    show p.val = p.val * 1 + 0
    omega)

/-- The [a, 1] → [a, b] broadcast, entry (p, q): the column's entry of row p. -/
theorem column_broadcast_at {α : Type} {a b : Nat} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 (n0 := a) (n1 := 1) p ⟨0, Nat.one_pos⟩) :=
  broadcastTo_apply v h (ix2 p q) _ (fun d => by
    match d with
    | ⟨0, _⟩ =>
      show p.val = if a = 1 then 0 else p.val
      split
      · have := p.isLt; omega
      · rfl
    | ⟨1, _⟩ =>
      show 0 = if (1 : Nat) = 1 then 0 else q.val
      rw [if_pos rfl])

/-- Both together: a vector of a numbers turned into a column and broadcast along the columns reads, at (p, q), the
    p-th number. -/
theorem column_at {α : Type} {a b : Nat} (u : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ u hc) hb (ix2 p q) = u (ix1 p) :=
  (column_broadcast_at _ hb p q).trans (column_cast_at u hc p)

end Cert.Lib.KeepdimsColumn

end
-- ==== Proof.LibOuterBlock.lean ====
/-
  Blocks of rows of a matrix built from one column and one row.

  A matrix of M rows and N columns whose entry (r, c) is made of the r-th number of a column and the c-th number of
  a row (an outer product, or any entrywise function of the two) is read here one block of rows at a time, in the
  same sense as for a dense layer: `RowBlk off xb X` says that `xb` is the block of `X` that starts at row `off`.

  * A column carried along the columns keeps the relation: inside a body the block's own column is broadcast to the
    block, on the host the whole column is broadcast to the whole matrix, and row `off + r` of the second is row `r`
    of the first.
  * A vector of n numbers made an n×1 column — by a reshape, which keeps the row-major position, or by a broadcast
    along a new trailing unit axis — is one and the same column.
  Stated for any extents; no finiteness is asked of any entry, nothing is computed.
-/
import proofs.«178449_j31301721653775_1_alg».proof.Proof.LibPlainRecord
import proofs.«178449_j31301721653775_1_alg».proof.Proof.LibKeepdimsColumn

noncomputable section

namespace Cert.Lib.DenseLayer

open Idealize.ShloMosaic Idealize.ShloMosaic.ValueIdx

/-- A column broadcast along the columns: the block of the broadcast is the broadcast of the block's column. -/
theorem RowBlk.col {Mb M N : Nat} {off : Nat} {vb : (⟨2, ![Mb, 1]⟩ : Shape).Idx → EReal}
    {V : (⟨2, ![M, 1]⟩ : Shape).Idx → EReal} (h : RowBlk off vb V)
    (hb : (⟨2, ![Mb, 1]⟩ : Shape).Broadcasts ⟨2, ![Mb, N]⟩)
    (hB : (⟨2, ![M, 1]⟩ : Shape).BroadcastsInDim ⟨2, ![M, N]⟩ ![0, 1]) :
    RowBlk off (broadcastTo ⟨2, ![Mb, N]⟩ vb hb) (broadcastInDim ⟨2, ![M, N]⟩ ![0, 1] hB V) := fun r hr c => by
  rw [Cert.Lib.KeepdimsColumn.column_broadcast_at vb hb r c,
    broadcastInDim_apply ![0, 1] hB V (ix2 ⟨off + r.val, hr⟩ c) (ix2 (n0 := M) (n1 := 1) ⟨off + r.val, hr⟩ ⟨0, Nat.one_pos⟩)
      (fun a => by
        match a with
        | ⟨0, _⟩ =>
          show off + r.val = if M = 1 then 0 else off + r.val
          split
          · omega
          · rfl
        | ⟨1, _⟩ =>
          show 0 = if (1 : Nat) = 1 then 0 else c.val
          rw [if_pos rfl])]
  exact h r hr ⟨0, Nat.one_pos⟩

/-- A vector of n entries made an n×1 column — by a reshape, or by a broadcast along a new trailing unit axis — is
    one and the same column. -/
theorem trailUnit_eq_bcast {α : Type} {n : Nat} (hn : n ≠ 1) (u : (⟨1, ![n]⟩ : Shape).Idx → α)
    (hs : (⟨1, ![n]⟩ : Shape).ShapeCasts ⟨2, ![n, 1]⟩) (hb : (⟨1, ![n]⟩ : Shape).BroadcastsInDim ⟨2, ![n, 1]⟩ ![0]) :
    shapeCast ⟨2, ![n, 1]⟩ u hs = broadcastInDim ⟨2, ![n, 1]⟩ ![0] hb u := funext fun j => by
  obtain ⟨p, q, rfl⟩ : ∃ (p : Fin n) (q : Fin 1), j = ix2 p q := ⟨j 0, j 1, eq_ix2 j⟩
  have hq : q = ⟨0, Nat.one_pos⟩ := Fin.ext (by have := q.isLt; omega)
  subst hq
  rw [Cert.Lib.KeepdimsColumn.column_cast_at u hs p,
    broadcastInDim_apply ![0] hb u (ix2 (n0 := n) (n1 := 1) p ⟨0, Nat.one_pos⟩) (ix1 p) (fun a => by
      match a with
      | ⟨0, _⟩ => exact (if_neg hn).symm)]

end Cert.Lib.DenseLayer

end
-- ==== Proof.FoldA.lean ====
/-
  The buffers' contents at the first boundary of the kernel program, as the reference's own stages.

  Before the first region the host computes, from the edge list alone: the source and destination node of every edge,
  the inverse square root of every node's degree (the number of edges into it, plus one), the product of the two
  end points' factors for every edge, and the square of every node's factor as a column. The reference computes the
  same arrays by the same operations in the same order, so each buffer holds the reference's stage of that name;
  the only difference is the last step, where the kernel's host code makes the column by a reshape and the
  reference by a broadcast along a new unit axis: one and the same column. No argument array is written.
-/
import proofs.«178449_j31301721653775_1_alg».proof.Proof.Gen.KernelIdeal.Frame
import proofs.«178449_j31301721653775_1_alg».proof.Proof.Gen.ReferenceIdeal.Read
import proofs.«178449_j31301721653775_1_alg».proof.Proof.LibOuterBlock

set_option maxRecDepth 16384

noncomputable section

namespace Cert.Gcn

open Cert.KernelIdeal Cert.KernelIdeal.Gen
open Idealize.ShloMosaic Idealize.ShloMosaic.TcCoe Idealize.ShloMosaic.ValueIdx Idealize.SL.Sem Idealize.ShloMosaic.StableHlo
open Cert.Lib.DenseLayer

variable (m : (ℓ : Loc nD τ sig) → Buf (Elt Ideal) ℓ) (ρ : Dev nD → PrngReg) (c : Dev nD)

/-! ## After the first stretch of host operations -/

theorem at1_src : W1 m ρ c (Proc.devRef .tc main_v1) = Cert.ReferenceIdeal.Read.val_main_v1 (F := Ideal) (m ((c : Thread nD τ).loc main_arg7)) := by
  dsimp only [W1, hostOps0]
  after_results_simp <;> rfl

theorem at1_dst : W1 m ρ c (Proc.devRef .tc main_v3) = Cert.ReferenceIdeal.Read.val_main_v3 (F := Ideal) (m ((c : Thread nD τ).loc main_arg7)) := by
  dsimp only [W1, hostOps0]
  after_results_simp <;> rfl

theorem at1_norm : W1 m ρ c (Proc.devRef .tc main_v25) = Cert.ReferenceIdeal.Read.val_main_v26 (F := Ideal) (m ((c : Thread nD τ).loc main_arg7)) := by
  dsimp only [W1, hostOps0]
  after_results_simp <;> rfl

theorem at1_col : W1 m ρ c (Proc.devRef .tc main_v27) = Cert.ReferenceIdeal.Read.val_main_v41 (F := Ideal) (m ((c : Thread nD τ).loc main_arg7)) := by
  dsimp only [W1, hostOps0]
  after_results_simp
  exact trailUnit_eq_bcast (n := 50000) (by decide) (Cert.ReferenceIdeal.Read.val_main_v40 (F := Ideal) (m ((c : Thread nD τ).loc main_arg7))) _ _

theorem at1_arg0 : W1 m ρ c (Proc.devRef .tc main_arg0) = (m ((c : Thread nD τ).loc main_arg0)) := by
  dsimp only [W1, hostOps0]
  after_results_simp <;> rfl

theorem at1_arg1 : W1 m ρ c (Proc.devRef .tc main_arg1) = (m ((c : Thread nD τ).loc main_arg1)) := by
  dsimp only [W1, hostOps0]
  after_results_simp <;> rfl

theorem at1_arg2 : W1 m ρ c (Proc.devRef .tc main_arg2) = (m ((c : Thread nD τ).loc main_arg2)) := by
  dsimp only [W1, hostOps0]
  after_results_simp <;> rfl

theorem at1_arg3 : W1 m ρ c (Proc.devRef .tc main_arg3) = (m ((c : Thread nD τ).loc main_arg3)) := by
  dsimp only [W1, hostOps0]
  after_results_simp <;> rfl

theorem at1_arg4 : W1 m ρ c (Proc.devRef .tc main_arg4) = (m ((c : Thread nD τ).loc main_arg4)) := by
  dsimp only [W1, hostOps0]
  after_results_simp <;> rfl

theorem at1_arg5 : W1 m ρ c (Proc.devRef .tc main_arg5) = (m ((c : Thread nD τ).loc main_arg5)) := by
  dsimp only [W1, hostOps0]
  after_results_simp <;> rfl

theorem at1_arg6 : W1 m ρ c (Proc.devRef .tc main_arg6) = (m ((c : Thread nD τ).loc main_arg6)) := by
  dsimp only [W1, hostOps0]
  after_results_simp <;> rfl

end Cert.Gcn

end
-- ==== Proof.LibRowRead.lean ====
/-
  Reading the row-block relation of a dense layer at arbitrary indices.

  `RowBlk off xb X` says that `xb` is the block of rows of `X` that starts at row `off`, entry by entry at indices
  built from a row and a column. Here the same fact is read at ANY index `y` of the block and ANY index `i` of the
  whole matrix whose row is `off` plus `y`'s row and whose column is `y`'s column; and a block equal to a whole
  matrix entry by entry, read at indices with equal coordinates.
-/
import proofs.«178449_j31301721653775_1_alg».proof.Proof.LibPlainRecord

noncomputable section

namespace Cert.Lib.DenseLayer

open Idealize.ShloMosaic Idealize.ShloMosaic.ValueIdx

/-- The block's entry at `y` is the matrix's entry at `i` when `i` is `y` moved down by `off` rows. -/
theorem RowBlk.read {Mb M K : Nat} {off : Nat} {xb : (⟨2, ![Mb, K]⟩ : Shape).Idx → EReal} {X : (⟨2, ![M, K]⟩ : Shape).Idx → EReal}
    (h : RowBlk off xb X) (y : (⟨2, ![Mb, K]⟩ : Shape).Idx) (i : (⟨2, ![M, K]⟩ : Shape).Idx)
    (h0 : (i 0).val = off + (y 0).val) (h1 : (i 1).val = (y 1).val) : xb y = X i := by
  have hr : off + (y 0).val < M := h0 ▸ (i 0).isLt
  have ey : y = ix2 (y 0) (y 1) := eq_ix2 y
  have ei : i = ix2 ⟨off + (y 0).val, hr⟩ (y 1) := funext fun a => Fin.ext (by
    match a with
    | ⟨0, _⟩ => exact h0
    | ⟨1, _⟩ => exact h1)
  rw [ey, ei]
  exact h (y 0) hr (y 1)

/-- The converse packaging: a block whose every entry is the matrix's entry `off` rows further down. -/
theorem RowBlk.of_read {Mb M K : Nat} {off : Nat} {xb : (⟨2, ![Mb, K]⟩ : Shape).Idx → EReal} {X : (⟨2, ![M, K]⟩ : Shape).Idx → EReal}
    (e : (⟨2, ![Mb, K]⟩ : Shape).Idx → (⟨2, ![M, K]⟩ : Shape).Idx)
    (h0 : ∀ y, (e y 0).val = off + (y 0).val) (h1 : ∀ y, (e y 1).val = (y 1).val)
    (h : ∀ y, xb y = X (e y)) : RowBlk off xb X := fun r hr k => by
  rw [h (ix2 r k)]
  exact congrArg X (funext fun a => Fin.ext (by
    match a with
    | ⟨0, _⟩ => exact h0 (ix2 r k)
    | ⟨1, _⟩ => exact h1 (ix2 r k)))

/-- Two indices of one rank-2 shape with equal coordinates are equal. -/
theorem idx2_ext {A B : Nat} (i j : (⟨2, ![A, B]⟩ : Shape).Idx) (h0 : (i 0).val = (j 0).val) (h1 : (i 1).val = (j 1).val) :
    i = j := funext fun a => Fin.ext (by
  match a with
  | ⟨0, _⟩ => exact h0
  | ⟨1, _⟩ => exact h1)

end Cert.Lib.DenseLayer

end
-- ==== Proof.MatmulRegions.lean ====
/-
  The three matrix-product regions, each as one whole-array function of what the region finds.

  Each region multiplies a 50000×96 matrix by a 96×96 factor, 2000 rows per grid point: the body narrows both
  operands' float format (the identity at the extended reals), multiplies them on the matrix unit into a zero
  accumulator, and stores the 2000×96 product. A row of a product depends on the same row of the left factor only, so
  the product of a block of rows is that block of rows of the product of the whole matrices; the 25 blocks tile
  the result, so the array the region leaves IS the host's product of the two arrays the region found. No
  finiteness is asked of any entry: both sides are the same sums of the same products.
-/
import proofs.«178449_j31301721653775_1_alg».proof.Proof.Gen.KernelIdeal.Frame
import proofs.«178449_j31301721653775_1_alg».proof.Proof.Gen.ReferenceIdeal
import proofs.«178449_j31301721653775_1_alg».proof.Proof.LibRowRead
import Idealize.ShloMosaic.Lib.Pipeline.Value

set_option maxRecDepth 16384

noncomputable section

namespace Cert.Gcn

open Cert.KernelIdeal Cert.KernelIdeal.Gen
open Idealize.ShloMosaic Idealize.ShloMosaic.TcCoe Idealize.ShloMosaic.ValueIdx Idealize.SL.Sem
open Idealize.ShloMosaic.Pipeline (Dat)
open Cert.Lib.DenseLayer

/-- The host's product record for the whole 50000-row matrix. -/
abbrev dotH : DotDims Cert.ReferenceIdeal.S50000x96 Cert.ReferenceIdeal.S96x96 Cert.ReferenceIdeal.S50000x96 :=
  Cert.ReferenceIdeal.dot_S50000x96_S96x96_S50000x96_1_0_0_1_n_n

/-- Both records — a block's and the whole matrix's — contract the left operand's columns with the right operand's rows. -/
theorem plain_block : Plain (M := 2000) (K := 96) (N := 96) dot_S2000x96_S96x96_S2000x96_1_0_0_1_n_n :=
  Plain.of_fields _ rfl rfl rfl rfl rfl rfl
theorem plain_whole : Plain (M := 50000) (K := 96) (N := 96) dotH :=
  Plain.of_fields _ rfl rfl rfl rfl rfl rfl

/-- The host's product of a whole 50000-row matrix with a 96×96 factor. -/
def mmH (X : S50000x96.Idx → EReal) (w : S96x96.Idx → EReal) : S50000x96.Idx → EReal :=
  Host.dotGeneral (F := Ideal) (φ₁ := .f32) (φ₂ := .f32) dotH none X w

theorem hz : (![0, 0] : Fin 2 → Nat) = fun _ => 0 := funext fun a => by fin_cases a <;> rfl

/-! ## Region 0: main_v28 = main_arg0 · main_arg1, one block of 2000 rows per grid point -/

/-- The body's stored value on a block of rows: the rows of the host's product. -/
theorem pay0_rows {off : Nat} (xb : FVec Ideal S2000x96 .f32) (w : FVec Ideal S96x96 .f32) (X : FVec Ideal S50000x96 .f32)
    (h : RowBlk (Mb := 2000) (M := 50000) (K := 96) off xb X) :
    RowBlk (Mb := 2000) (M := 50000) (K := 96) off (k0_pay1 (F := Ideal) xb w) (mmH X w) := by
  unfold k0_pay1 mmH
  exact RowBlk.matmul plain_block plain_whole h w _ _

section
variable (V : (c : Dev nD) → (b : Ref sig .tc) → Buf (Elt Ideal) ((c : Thread nD τ).loc b))

/-- The index maps over the grid: point t takes block row t of the left factor and of the result, and the whole
    right factor. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left factor's block at point t is its rows 2000·t … 2000·t + 1999. -/
theorem xblk0 (c : Dev nD) (t : Fin cfg0.N) :
    RowBlk (Mb := 2000) (M := 50000) (K := 96) (t.val * 2000) (iblk0 V c 0 t) (V c main_arg0) := by
  obtain ⟨e0, e1, -⟩ := idx0 t
  refine RowBlk.of_read (fun y => ((cfg0.win 0).blk t).view.emb y) (fun y => ?_) (fun y => ?_) (fun y => rfl)
  · show win0_0.index t (0 : Fin 2) * 2000 + 1 * (y 0).val = _
    omega
  · show win0_0.index t (1 : Fin 2) * 96 + 1 * (y 1).val = _
    omega

/-- The right factor's block at every point is the whole factor. -/
theorem wblk0 (c : Dev nD) (t : Fin cfg0.N) : (iblk0 V c 1 t : S96x96.Idx → EReal) = V c main_arg1 := by
  obtain ⟨-, -, e2, e3, -⟩ := idx0 t
  funext y
  show V c main_arg1 (((cfg0.win 1).blk t).view.emb y) = V c main_arg1 y
  refine congrArg _ (funext fun a => Fin.ext ?_)
  match a with
  | ⟨0, _⟩ => show win0_1.index t (0 : Fin 2) * 96 + 1 * (y 0).val = (y 0).val; omega
  | ⟨1, _⟩ => show win0_1.index t (1 : Fin 2) * 96 + 1 * (y 1).val = (y 1).val; omega

/-- What point t writes back is block t of the host's product of the arrays as the region finds them. -/
theorem flushed0 (c : Dev nD) (t : Fin cfg0.N) :
    (dat0 V c).flushed 2 t = ((cfg0.win 2).blk t).view.read (Elt Ideal) (mmH (V c main_arg0) (V c main_arg1)) := by
  show (cfg0.win 2).cut (grid0.coords t) ((dat0 V c).after 2 t) = _
  rw [after0_2]
  unfold out0_2
  rw [View.canon_unit_zero hz]
  simp only [View.ld_unit_zero (S := S2000x96) hz, View.ld_unit_zero (S := S96x96) hz]
  obtain ⟨-, -, -, -, e4, e5⟩ := idx0 t
  funext j
  show k0_pay1 (F := Ideal) (iblk0 V c 0 t) (iblk0 V c 1 t) j
    = mmH (V c main_arg0) (V c main_arg1) (((cfg0.win 2).blk t).view.emb j)
  rw [wblk0 V c t]
  refine (pay0_rows _ _ _ (xblk0 V c t)).read j _ ?_ ?_
  · show win0_2.index t (0 : Fin 2) * 2000 + 1 * (j 0).val = _
    omega
  · show win0_2.index t (1 : Fin 2) * 96 + 1 * (j 1).val = _
    omega

/-- Membership in point t's block of the result, coordinate by coordinate. -/
theorem mem_blk0 (t : Fin cfg0.N) (i : S50000x96.Idx) :
    i ∈ ((cfg0.win 2).blk t).view.set ↔ ∀ a : Fin 2, win0_2.index t a * S2000x96.size a ≤ (i a).val
      ∧ (i a).val < win0_2.index t a * S2000x96.size a + S2000x96.size a := by
  show i ∈ ((View.whole main_v28).slice (win0_2.rect t)).set ↔ _
  rw [View.set_slice_whole, Rect.mem_set_unit]
  exact Iff.rfl

/-- Row r of the result lies in the block of point r / 2000: the 25 blocks cover the array. -/
theorem cover0 (i : S50000x96.Idx) :
    ∃ t : Fin cfg0.N, (cfg0.win 2).flush t = true ∧ i ∈ ((cfg0.win 2).blk t).view.set := by
  have hi0 : (i 0).val < 50000 := (i 0).isLt
  have hi1 : (i 1).val < 96 := (i 1).isLt
  have hlt : (i 0).val / 2000 < cfg0.N :=
    Nat.lt_of_lt_of_eq (by omega : (i 0).val / 2000 < 25) (rfl : 25 = cfg0.N)
  obtain ⟨-, -, -, -, e4, e5⟩ := idx0 ⟨(i 0).val / 2000, hlt⟩
  have e4' : win0_2.index ⟨(i 0).val / 2000, hlt⟩ (0 : Fin 2) = (i 0).val / 2000 := e4
  refine ⟨⟨(i 0).val / 2000, hlt⟩, flush0_2 _, ?_⟩
  rw [mem_blk0]
  intro a
  match a with
  | ⟨0, _⟩ =>
    show win0_2.index ⟨(i 0).val / 2000, _⟩ (0 : Fin 2) * 2000 ≤ (i 0).val
      ∧ (i 0).val < win0_2.index ⟨(i 0).val / 2000, _⟩ (0 : Fin 2) * 2000 + 2000
    omega
  | ⟨1, _⟩ =>
    show win0_2.index ⟨(i 0).val / 2000, _⟩ (1 : Fin 2) * 96 ≤ (i 1).val
      ∧ (i 1).val < win0_2.index ⟨(i 0).val / 2000, _⟩ (1 : Fin 2) * 96 + 96
    omega

/-- THE ARRAY the region leaves: the host's product of the two arrays as the region finds them. -/
theorem region0 (c : Dev nD) : (dat0 V c).arrAt 2 cfg0.N = mmH (V c main_arg0) (V c main_arg1) :=
  (dat0 V c).arrAt_eq_of_cover 2 _ (fun t _ => flushed0 V c t) cover0

end

/-! ## Region 2: main_v44 = main_v43 · main_arg3, one block of 2000 rows per grid point -/

/-- The body's stored value on a block of rows: the rows of the host's product. -/
theorem pay2_rows {off : Nat} (xb : FVec Ideal S2000x96 .f32) (w : FVec Ideal S96x96 .f32) (X : FVec Ideal S50000x96 .f32)
    (h : RowBlk (Mb := 2000) (M := 50000) (K := 96) off xb X) :
    RowBlk (Mb := 2000) (M := 50000) (K := 96) off (k2_pay1 (F := Ideal) xb w) (mmH X w) := by
  unfold k2_pay1 mmH
  exact RowBlk.matmul plain_block plain_whole (h.castSelf _) w _ _

section
variable (V : (c : Dev nD) → (b : Ref sig .tc) → Buf (Elt Ideal) ((c : Thread nD τ).loc b))

/-- The index maps over the grid: point t takes block row t of the left factor and of the result, and the whole
    right factor. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The left factor's block at point t is its rows 2000·t … 2000·t + 1999. -/
theorem xblk2 (c : Dev nD) (t : Fin cfg2.N) :
    RowBlk (Mb := 2000) (M := 50000) (K := 96) (t.val * 2000) (iblk2 V c 0 t) (V c main_v43) := by
  obtain ⟨e0, e1, -⟩ := idx2 t
  refine RowBlk.of_read (fun y => ((cfg2.win 0).blk t).view.emb y) (fun y => ?_) (fun y => ?_) (fun y => rfl)
  · show win2_0.index t (0 : Fin 2) * 2000 + 1 * (y 0).val = _
    omega
  · show win2_0.index t (1 : Fin 2) * 96 + 1 * (y 1).val = _
    omega

/-- The right factor's block at every point is the whole factor. -/
theorem wblk2 (c : Dev nD) (t : Fin cfg2.N) : (iblk2 V c 1 t : S96x96.Idx → EReal) = V c main_arg3 := by
  obtain ⟨-, -, e2, e3, -⟩ := idx2 t
  funext y
  show V c main_arg3 (((cfg2.win 1).blk t).view.emb y) = V c main_arg3 y
  refine congrArg _ (funext fun a => Fin.ext ?_)
  match a with
  | ⟨0, _⟩ => show win2_1.index t (0 : Fin 2) * 96 + 1 * (y 0).val = (y 0).val; omega
  | ⟨1, _⟩ => show win2_1.index t (1 : Fin 2) * 96 + 1 * (y 1).val = (y 1).val; omega

/-- What point t writes back is block t of the host's product of the arrays as the region finds them. -/
theorem flushed2 (c : Dev nD) (t : Fin cfg2.N) :
    (dat2 V c).flushed 2 t = ((cfg2.win 2).blk t).view.read (Elt Ideal) (mmH (V c main_v43) (V c main_arg3)) := by
  show (cfg2.win 2).cut (grid2.coords t) ((dat2 V c).after 2 t) = _
  rw [after2_2]
  unfold out2_2
  rw [View.canon_unit_zero hz]
  simp only [View.ld_unit_zero (S := S2000x96) hz, View.ld_unit_zero (S := S96x96) hz]
  obtain ⟨-, -, -, -, e4, e5⟩ := idx2 t
  funext j
  show k2_pay1 (F := Ideal) (iblk2 V c 0 t) (iblk2 V c 1 t) j
    = mmH (V c main_v43) (V c main_arg3) (((cfg2.win 2).blk t).view.emb j)
  rw [wblk2 V c t]
  refine (pay2_rows _ _ _ (xblk2 V c t)).read j _ ?_ ?_
  · show win2_2.index t (0 : Fin 2) * 2000 + 1 * (j 0).val = _
    omega
  · show win2_2.index t (1 : Fin 2) * 96 + 1 * (j 1).val = _
    omega

/-- Membership in point t's block of the result, coordinate by coordinate. -/
theorem mem_blk2 (t : Fin cfg2.N) (i : S50000x96.Idx) :
    i ∈ ((cfg2.win 2).blk t).view.set ↔ ∀ a : Fin 2, win2_2.index t a * S2000x96.size a ≤ (i a).val
      ∧ (i a).val < win2_2.index t a * S2000x96.size a + S2000x96.size a := by
  show i ∈ ((View.whole main_v44).slice (win2_2.rect t)).set ↔ _
  rw [View.set_slice_whole, Rect.mem_set_unit]
  exact Iff.rfl

/-- Row r of the result lies in the block of point r / 2000: the 25 blocks cover the array. -/
theorem cover2 (i : S50000x96.Idx) :
    ∃ t : Fin cfg2.N, (cfg2.win 2).flush t = true ∧ i ∈ ((cfg2.win 2).blk t).view.set := by
  have hi0 : (i 0).val < 50000 := (i 0).isLt
  have hi1 : (i 1).val < 96 := (i 1).isLt
  have hlt : (i 0).val / 2000 < cfg2.N :=
    Nat.lt_of_lt_of_eq (by omega : (i 0).val / 2000 < 25) (rfl : 25 = cfg2.N)
  obtain ⟨-, -, -, -, e4, e5⟩ := idx2 ⟨(i 0).val / 2000, hlt⟩
  have e4' : win2_2.index ⟨(i 0).val / 2000, hlt⟩ (0 : Fin 2) = (i 0).val / 2000 := e4
  refine ⟨⟨(i 0).val / 2000, hlt⟩, flush2_2 _, ?_⟩
  rw [mem_blk2]
  intro a
  match a with
  | ⟨0, _⟩ =>
    show win2_2.index ⟨(i 0).val / 2000, _⟩ (0 : Fin 2) * 2000 ≤ (i 0).val
      ∧ (i 0).val < win2_2.index ⟨(i 0).val / 2000, _⟩ (0 : Fin 2) * 2000 + 2000
    omega
  | ⟨1, _⟩ =>
    show win2_2.index ⟨(i 0).val / 2000, _⟩ (1 : Fin 2) * 96 ≤ (i 1).val
      ∧ (i 1).val < win2_2.index ⟨(i 0).val / 2000, _⟩ (1 : Fin 2) * 96 + 96
    omega

/-- THE ARRAY the region leaves: the host's product of the two arrays as the region finds them. -/
theorem region2 (c : Dev nD) : (dat2 V c).arrAt 2 cfg2.N = mmH (V c main_v43) (V c main_arg3) :=
  (dat2 V c).arrAt_eq_of_cover 2 _ (fun t _ => flushed2 V c t) cover2

end

/-! ## Region 4: main_v60 = main_v59 · main_arg5, one block of 2000 rows per grid point -/

/-- The body's stored value on a block of rows: the rows of the host's product. -/
theorem pay4_rows {off : Nat} (xb : FVec Ideal S2000x96 .f32) (w : FVec Ideal S96x96 .f32) (X : FVec Ideal S50000x96 .f32)
    (h : RowBlk (Mb := 2000) (M := 50000) (K := 96) off xb X) :
    RowBlk (Mb := 2000) (M := 50000) (K := 96) off (k4_pay1 (F := Ideal) xb w) (mmH X w) := by
  unfold k4_pay1 mmH
  exact RowBlk.matmul plain_block plain_whole (h.castSelf _) w _ _

section
variable (V : (c : Dev nD) → (b : Ref sig .tc) → Buf (Elt Ideal) ((c : Thread nD τ).loc b))

/-- The index maps over the grid: point t takes block row t of the left factor and of the result, and the whole
    right factor. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The left factor's block at point t is its rows 2000·t … 2000·t + 1999. -/
theorem xblk4 (c : Dev nD) (t : Fin cfg4.N) :
    RowBlk (Mb := 2000) (M := 50000) (K := 96) (t.val * 2000) (iblk4 V c 0 t) (V c main_v59) := by
  obtain ⟨e0, e1, -⟩ := idx4 t
  refine RowBlk.of_read (fun y => ((cfg4.win 0).blk t).view.emb y) (fun y => ?_) (fun y => ?_) (fun y => rfl)
  · show win4_0.index t (0 : Fin 2) * 2000 + 1 * (y 0).val = _
    omega
  · show win4_0.index t (1 : Fin 2) * 96 + 1 * (y 1).val = _
    omega

/-- The right factor's block at every point is the whole factor. -/
theorem wblk4 (c : Dev nD) (t : Fin cfg4.N) : (iblk4 V c 1 t : S96x96.Idx → EReal) = V c main_arg5 := by
  obtain ⟨-, -, e2, e3, -⟩ := idx4 t
  funext y
  show V c main_arg5 (((cfg4.win 1).blk t).view.emb y) = V c main_arg5 y
  refine congrArg _ (funext fun a => Fin.ext ?_)
  match a with
  | ⟨0, _⟩ => show win4_1.index t (0 : Fin 2) * 96 + 1 * (y 0).val = (y 0).val; omega
  | ⟨1, _⟩ => show win4_1.index t (1 : Fin 2) * 96 + 1 * (y 1).val = (y 1).val; omega

/-- What point t writes back is block t of the host's product of the arrays as the region finds them. -/
theorem flushed4 (c : Dev nD) (t : Fin cfg4.N) :
    (dat4 V c).flushed 2 t = ((cfg4.win 2).blk t).view.read (Elt Ideal) (mmH (V c main_v59) (V c main_arg5)) := by
  show (cfg4.win 2).cut (grid4.coords t) ((dat4 V c).after 2 t) = _
  rw [after4_2]
  unfold out4_2
  rw [View.canon_unit_zero hz]
  simp only [View.ld_unit_zero (S := S2000x96) hz, View.ld_unit_zero (S := S96x96) hz]
  obtain ⟨-, -, -, -, e4, e5⟩ := idx4 t
  funext j
  show k4_pay1 (F := Ideal) (iblk4 V c 0 t) (iblk4 V c 1 t) j
    = mmH (V c main_v59) (V c main_arg5) (((cfg4.win 2).blk t).view.emb j)
  rw [wblk4 V c t]
  refine (pay4_rows _ _ _ (xblk4 V c t)).read j _ ?_ ?_
  · show win4_2.index t (0 : Fin 2) * 2000 + 1 * (j 0).val = _
    omega
  · show win4_2.index t (1 : Fin 2) * 96 + 1 * (j 1).val = _
    omega

/-- Membership in point t's block of the result, coordinate by coordinate. -/
theorem mem_blk4 (t : Fin cfg4.N) (i : S50000x96.Idx) :
    i ∈ ((cfg4.win 2).blk t).view.set ↔ ∀ a : Fin 2, win4_2.index t a * S2000x96.size a ≤ (i a).val
      ∧ (i a).val < win4_2.index t a * S2000x96.size a + S2000x96.size a := by
  show i ∈ ((View.whole main_v60).slice (win4_2.rect t)).set ↔ _
  rw [View.set_slice_whole, Rect.mem_set_unit]
  exact Iff.rfl

/-- Row r of the result lies in the block of point r / 2000: the 25 blocks cover the array. -/
theorem cover4 (i : S50000x96.Idx) :
    ∃ t : Fin cfg4.N, (cfg4.win 2).flush t = true ∧ i ∈ ((cfg4.win 2).blk t).view.set := by
  have hi0 : (i 0).val < 50000 := (i 0).isLt
  have hi1 : (i 1).val < 96 := (i 1).isLt
  have hlt : (i 0).val / 2000 < cfg4.N :=
    Nat.lt_of_lt_of_eq (by omega : (i 0).val / 2000 < 25) (rfl : 25 = cfg4.N)
  obtain ⟨-, -, -, -, e4, e5⟩ := idx4 ⟨(i 0).val / 2000, hlt⟩
  have e4' : win4_2.index ⟨(i 0).val / 2000, hlt⟩ (0 : Fin 2) = (i 0).val / 2000 := e4
  refine ⟨⟨(i 0).val / 2000, hlt⟩, flush4_2 _, ?_⟩
  rw [mem_blk4]
  intro a
  match a with
  | ⟨0, _⟩ =>
    show win4_2.index ⟨(i 0).val / 2000, _⟩ (0 : Fin 2) * 2000 ≤ (i 0).val
      ∧ (i 0).val < win4_2.index ⟨(i 0).val / 2000, _⟩ (0 : Fin 2) * 2000 + 2000
    omega
  | ⟨1, _⟩ =>
    show win4_2.index ⟨(i 0).val / 2000, _⟩ (1 : Fin 2) * 96 ≤ (i 1).val
      ∧ (i 1).val < win4_2.index ⟨(i 0).val / 2000, _⟩ (1 : Fin 2) * 96 + 96
    omega

/-- THE ARRAY the region leaves: the host's product of the two arrays as the region finds them. -/
theorem region4 (c : Dev nD) : (dat4 V c).arrAt 2 cfg4.N = mmH (V c main_v59) (V c main_arg5) :=
  (dat4 V c).arrAt_eq_of_cover 2 _ (fun t _ => flushed4 V c t) cover4

end

end Cert.Gcn

end
-- ==== Proof.CombineRegions.lean ====
/-
  The three combining regions, each as one whole-array function of what the region finds.

  Each region computes, 2000 rows per grid point, agg + h · d + b (and, in the first two layers, the maximum of that
  with 0), where agg and h are 50000×96 matrices, d a 50000×1 column carried along the columns and b a 1×96 row
  carried along the rows. Every operation acts on each row by itself, so what it makes of a block of rows is the
  same block of rows of what the host's whole-array operations make of the whole arrays; the 25 blocks tile the result, so
  the array the region leaves IS the host's combination — same operations, same grouping — of the four arrays the
  region found. No finiteness is asked of any entry.
-/
import proofs.«178449_j31301721653775_1_alg».proof.Proof.Gen.KernelIdeal.Frame
import proofs.«178449_j31301721653775_1_alg».proof.Proof.Gen.ReferenceIdeal
import proofs.«178449_j31301721653775_1_alg».proof.Proof.LibOuterBlock
import proofs.«178449_j31301721653775_1_alg».proof.Proof.LibRowRead
import Idealize.ShloMosaic.Lib.Pipeline.Value

set_option maxRecDepth 16384

noncomputable section

namespace Cert.Gcn

open Cert.KernelIdeal Cert.KernelIdeal.Gen
open Idealize.ShloMosaic Idealize.ShloMosaic.TcCoe Idealize.ShloMosaic.ValueIdx Idealize.SL.Sem
open Idealize.ShloMosaic.Pipeline (Dat)
open Cert.Lib.DenseLayer

/-- The host's combination of whole arrays: (agg + h · column d) + row b. -/
def combH (agg h : S50000x96.Idx → EReal) (d : S50000x1.Idx → EReal) (b : S1x96.Idx → EReal) : S50000x96.Idx → EReal :=
  addf (F := Ideal) (φ := .f32)
    (addf (F := Ideal) (φ := .f32) agg
      (mulf (F := Ideal) (φ := .f32) h (broadcastInDim S50000x96 ![0, 1] Cert.ReferenceIdeal.Gen.bcast_S50000x1_S50000x96_0_1 d)))
    (broadcastInDim S50000x96 ![0, 1] Cert.ReferenceIdeal.Gen.bcast_S1x96_S50000x96_0_1 b)

/-- The host's rectifier: the entrywise maximum with the all-zero matrix. -/
def reluH (a : S50000x96.Idx → EReal) : S50000x96.Idx → EReal :=
  maximumf (F := Ideal) (φ := .f32) a
    (broadcastInDim S50000x96 ![] Cert.ReferenceIdeal.Gen.bcast_S_S50000x96 (constant (F := Ideal) S_ .f32 0x00000000#32))

theorem hz' : (![0, 0] : Fin 2 → Nat) = fun _ => 0 := funext fun a => by fin_cases a <;> rfl

/-- The zero splat of a block against the host's all-zero matrix. -/
theorem zero_rows {off : Nat} :
    RowBlk (Mb := 2000) (M := 50000) (K := 96) off
      (broadcast S2000x96 (Scalar.ofBits (F := Ideal) .f32 0x00000000#32))
      (broadcastInDim S50000x96 ![] Cert.ReferenceIdeal.Gen.bcast_S_S50000x96 (constant (F := Ideal) S_ .f32 0x00000000#32)) :=
  RowBlk.const (Scalar.ofBits (F := Ideal) .f32 0x00000000#32) (fun i => rfl) (fun i => rfl)

/-! ## Region 1: main_v43 = max(main_v41 + main_v28 · column(main_v27) + row(main_v42), 0), one block of 2000 rows per grid point -/

/-- The body's stored value on a block of rows: the rows of the host's combination of the whole arrays. -/
theorem pay1_rows {off : Nat} (db : FVec Ideal S2000x1 .f32) (b : FVec Ideal S1x96 .f32) (ab hb : FVec Ideal S2000x96 .f32)
    (D : FVec Ideal S50000x1 .f32) (A H : FVec Ideal S50000x96 .f32)
    (hd : RowBlk (Mb := 2000) (M := 50000) (K := 1) off db D)
    (ha : RowBlk (Mb := 2000) (M := 50000) (K := 96) off ab A) (hh : RowBlk (Mb := 2000) (M := 50000) (K := 96) off hb H) :
    RowBlk (Mb := 2000) (M := 50000) (K := 96) off (k1_pay1 (F := Ideal) db b ab hb) (reluH (combH A H D b)) := by
  unfold k1_pay1 reluH combH
  refine RowBlk.max (RowBlk.add (RowBlk.add (ha.castSelf _) (RowBlk.mul (hh.castSelf _) (RowBlk.col (hd.castSelf _) _ _))) ?_) ?_
  · rw [shapeCast_self]
    exact RowBlk.bias b _ _
  · exact zero_rows

section
variable (V : (c : Dev nD) → (b : Ref sig .tc) → Buf (Elt Ideal) ((c : Thread nD τ).loc b))

/-- The index maps over the grid: point t takes block row t of the two matrices, of the column and of the result,
    and the whole bias row. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The aggregated messages' block at point t is their rows 2000·t … 2000·t + 1999. -/
theorem ablk1 (c : Dev nD) (t : Fin cfg1.N) :
    RowBlk (Mb := 2000) (M := 50000) (K := 96) (t.val * 2000) (iblk1 V c 0 t) (V c main_v41) := by
  obtain ⟨e0, e1, -⟩ := idx1 t
  refine RowBlk.of_read (fun y => ((cfg1.win 0).blk t).view.emb y) (fun y => ?_) (fun y => ?_) (fun y => rfl)
  · show win1_0.index t (0 : Fin 2) * 2000 + 1 * (y 0).val = _
    omega
  · show win1_0.index t (1 : Fin 2) * 96 + 1 * (y 1).val = _
    omega

/-- The transformed features' block at point t is their rows 2000·t … 2000·t + 1999. -/
theorem hblk1 (c : Dev nD) (t : Fin cfg1.N) :
    RowBlk (Mb := 2000) (M := 50000) (K := 96) (t.val * 2000) (iblk1 V c 1 t) (V c main_v28) := by
  obtain ⟨-, -, e2, e3, -⟩ := idx1 t
  refine RowBlk.of_read (fun y => ((cfg1.win 1).blk t).view.emb y) (fun y => ?_) (fun y => ?_) (fun y => rfl)
  · show win1_1.index t (0 : Fin 2) * 2000 + 1 * (y 0).val = _
    omega
  · show win1_1.index t (1 : Fin 2) * 96 + 1 * (y 1).val = _
    omega

/-- The per-node factor's block at point t is entries 2000·t … 2000·t + 1999 of the column. -/
theorem dblk1 (c : Dev nD) (t : Fin cfg1.N) :
    RowBlk (Mb := 2000) (M := 50000) (K := 1) (t.val * 2000) (iblk1 V c 2 t) (V c main_v27) := by
  obtain ⟨-, -, -, -, e4, e5, -⟩ := idx1 t
  refine RowBlk.of_read (fun y => ((cfg1.win 2).blk t).view.emb y) (fun y => ?_) (fun y => ?_) (fun y => rfl)
  · show win1_2.index t (0 : Fin 2) * 2000 + 1 * (y 0).val = _
    omega
  · show win1_2.index t (1 : Fin 2) * 1 + 1 * (y 1).val = _
    omega

/-- The bias row's block at every point is the whole row. -/
theorem bblk1 (c : Dev nD) (t : Fin cfg1.N) : (iblk1 V c 3 t : S1x96.Idx → EReal) = V c main_v42 := by
  obtain ⟨-, -, -, -, -, -, e6, e7, -⟩ := idx1 t
  funext y
  show V c main_v42 (((cfg1.win 3).blk t).view.emb y) = V c main_v42 y
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 96 + 1 * (y 1).val = (y 1).val; omega

/-- What point t writes back is block t of the host's combination of the arrays as the region finds them. -/
theorem flushed1 (c : Dev nD) (t : Fin cfg1.N) :
    (dat1 V c).flushed 4 t = ((cfg1.win 4).blk t).view.read (Elt Ideal)
      (reluH (combH (V c main_v41) (V c main_v28) (V c main_v27) (V c main_v42))) := by
  show (cfg1.win 4).cut (grid1.coords t) ((dat1 V c).after 4 t) = _
  rw [after1_4]
  unfold out1_4
  rw [View.canon_unit_zero hz']
  simp only [View.ld_unit_zero (S := S2000x96) hz', View.ld_unit_zero (S := S2000x1) hz', View.ld_unit_zero (S := S1x96) hz']
  obtain ⟨-, -, -, -, -, -, -, -, e8, e9⟩ := idx1 t
  funext j
  show k1_pay1 (F := Ideal) (iblk1 V c 2 t) (iblk1 V c 3 t) (iblk1 V c 0 t) (iblk1 V c 1 t) j
    = (reluH (combH (V c main_v41) (V c main_v28) (V c main_v27) (V c main_v42))) (((cfg1.win 4).blk t).view.emb j)
  rw [bblk1 V c t]
  refine (pay1_rows _ _ _ _ _ _ _ (dblk1 V c t) (ablk1 V c t) (hblk1 V c t)).read j _ ?_ ?_
  · show win1_4.index t (0 : Fin 2) * 2000 + 1 * (j 0).val = _
    omega
  · show win1_4.index t (1 : Fin 2) * 96 + 1 * (j 1).val = _
    omega

/-- Membership in point t's block of the result, coordinate by coordinate. -/
theorem mem_blk1 (t : Fin cfg1.N) (i : S50000x96.Idx) :
    i ∈ ((cfg1.win 4).blk t).view.set ↔ ∀ a : Fin 2, win1_4.index t a * S2000x96.size a ≤ (i a).val
      ∧ (i a).val < win1_4.index t a * S2000x96.size a + S2000x96.size a := by
  show i ∈ ((View.whole main_v43).slice (win1_4.rect t)).set ↔ _
  rw [View.set_slice_whole, Rect.mem_set_unit]
  exact Iff.rfl

/-- Row r of the result lies in the block of point r / 2000: the 25 blocks cover the array. -/
theorem cover1 (i : S50000x96.Idx) :
    ∃ t : Fin cfg1.N, (cfg1.win 4).flush t = true ∧ i ∈ ((cfg1.win 4).blk t).view.set := by
  have hi0 : (i 0).val < 50000 := (i 0).isLt
  have hi1 : (i 1).val < 96 := (i 1).isLt
  have hlt : (i 0).val / 2000 < cfg1.N :=
    Nat.lt_of_lt_of_eq (by omega : (i 0).val / 2000 < 25) (rfl : 25 = cfg1.N)
  obtain ⟨-, -, -, -, -, -, -, -, e8, e9⟩ := idx1 ⟨(i 0).val / 2000, hlt⟩
  have e8' : win1_4.index ⟨(i 0).val / 2000, hlt⟩ (0 : Fin 2) = (i 0).val / 2000 := e8
  refine ⟨⟨(i 0).val / 2000, hlt⟩, flush1_4 _, ?_⟩
  rw [mem_blk1]
  intro a
  match a with
  | ⟨0, _⟩ =>
    show win1_4.index ⟨(i 0).val / 2000, _⟩ (0 : Fin 2) * 2000 ≤ (i 0).val
      ∧ (i 0).val < win1_4.index ⟨(i 0).val / 2000, _⟩ (0 : Fin 2) * 2000 + 2000
    omega
  | ⟨1, _⟩ =>
    show win1_4.index ⟨(i 0).val / 2000, _⟩ (1 : Fin 2) * 96 ≤ (i 1).val
      ∧ (i 1).val < win1_4.index ⟨(i 0).val / 2000, _⟩ (1 : Fin 2) * 96 + 96
    omega

/-- THE ARRAY the region leaves: the host's combination of the four arrays as the region finds them. -/
theorem region1 (c : Dev nD) :
    (dat1 V c).arrAt 4 cfg1.N = reluH (combH (V c main_v41) (V c main_v28) (V c main_v27) (V c main_v42)) :=
  (dat1 V c).arrAt_eq_of_cover 4 _ (fun t _ => flushed1 V c t) cover1

end

/-! ## Region 3: main_v59 = max(main_v57 + main_v44 · column(main_v27) + row(main_v58), 0), one block of 2000 rows per grid point -/

/-- The body's stored value on a block of rows: the rows of the host's combination of the whole arrays. -/
theorem pay3_rows {off : Nat} (db : FVec Ideal S2000x1 .f32) (b : FVec Ideal S1x96 .f32) (ab hb : FVec Ideal S2000x96 .f32)
    (D : FVec Ideal S50000x1 .f32) (A H : FVec Ideal S50000x96 .f32)
    (hd : RowBlk (Mb := 2000) (M := 50000) (K := 1) off db D)
    (ha : RowBlk (Mb := 2000) (M := 50000) (K := 96) off ab A) (hh : RowBlk (Mb := 2000) (M := 50000) (K := 96) off hb H) :
    RowBlk (Mb := 2000) (M := 50000) (K := 96) off (k3_pay1 (F := Ideal) db b ab hb) (reluH (combH A H D b)) := by
  unfold k3_pay1 reluH combH
  refine RowBlk.max (RowBlk.add (RowBlk.add (ha.castSelf _) (RowBlk.mul (hh.castSelf _) (RowBlk.col (hd.castSelf _) _ _))) ?_) ?_
  · rw [shapeCast_self]
    exact RowBlk.bias b _ _
  · exact zero_rows

section
variable (V : (c : Dev nD) → (b : Ref sig .tc) → Buf (Elt Ideal) ((c : Thread nD τ).loc b))

/-- The index maps over the grid: point t takes block row t of the two matrices, of the column and of the result,
    and the whole bias row. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- The aggregated messages' block at point t is their rows 2000·t … 2000·t + 1999. -/
theorem ablk3 (c : Dev nD) (t : Fin cfg3.N) :
    RowBlk (Mb := 2000) (M := 50000) (K := 96) (t.val * 2000) (iblk3 V c 0 t) (V c main_v57) := by
  obtain ⟨e0, e1, -⟩ := idx3 t
  refine RowBlk.of_read (fun y => ((cfg3.win 0).blk t).view.emb y) (fun y => ?_) (fun y => ?_) (fun y => rfl)
  · show win3_0.index t (0 : Fin 2) * 2000 + 1 * (y 0).val = _
    omega
  · show win3_0.index t (1 : Fin 2) * 96 + 1 * (y 1).val = _
    omega

/-- The transformed features' block at point t is their rows 2000·t … 2000·t + 1999. -/
theorem hblk3 (c : Dev nD) (t : Fin cfg3.N) :
    RowBlk (Mb := 2000) (M := 50000) (K := 96) (t.val * 2000) (iblk3 V c 1 t) (V c main_v44) := by
  obtain ⟨-, -, e2, e3, -⟩ := idx3 t
  refine RowBlk.of_read (fun y => ((cfg3.win 1).blk t).view.emb y) (fun y => ?_) (fun y => ?_) (fun y => rfl)
  · show win3_1.index t (0 : Fin 2) * 2000 + 1 * (y 0).val = _
    omega
  · show win3_1.index t (1 : Fin 2) * 96 + 1 * (y 1).val = _
    omega

/-- The per-node factor's block at point t is entries 2000·t … 2000·t + 1999 of the column. -/
theorem dblk3 (c : Dev nD) (t : Fin cfg3.N) :
    RowBlk (Mb := 2000) (M := 50000) (K := 1) (t.val * 2000) (iblk3 V c 2 t) (V c main_v27) := by
  obtain ⟨-, -, -, -, e4, e5, -⟩ := idx3 t
  refine RowBlk.of_read (fun y => ((cfg3.win 2).blk t).view.emb y) (fun y => ?_) (fun y => ?_) (fun y => rfl)
  · show win3_2.index t (0 : Fin 2) * 2000 + 1 * (y 0).val = _
    omega
  · show win3_2.index t (1 : Fin 2) * 1 + 1 * (y 1).val = _
    omega

/-- The bias row's block at every point is the whole row. -/
theorem bblk3 (c : Dev nD) (t : Fin cfg3.N) : (iblk3 V c 3 t : S1x96.Idx → EReal) = V c main_v58 := by
  obtain ⟨-, -, -, -, -, -, e6, e7, -⟩ := idx3 t
  funext y
  show V c main_v58 (((cfg3.win 3).blk t).view.emb y) = V c main_v58 y
  refine congrArg _ (funext fun a => Fin.ext ?_)
  match a with
  | ⟨0, _⟩ => show win3_3.index t (0 : Fin 2) * 1 + 1 * (y 0).val = (y 0).val; omega
  | ⟨1, _⟩ => show win3_3.index t (1 : Fin 2) * 96 + 1 * (y 1).val = (y 1).val; omega

/-- What point t writes back is block t of the host's combination of the arrays as the region finds them. -/
theorem flushed3 (c : Dev nD) (t : Fin cfg3.N) :
    (dat3 V c).flushed 4 t = ((cfg3.win 4).blk t).view.read (Elt Ideal)
      (reluH (combH (V c main_v57) (V c main_v44) (V c main_v27) (V c main_v58))) := by
  show (cfg3.win 4).cut (grid3.coords t) ((dat3 V c).after 4 t) = _
  rw [after3_4]
  unfold out3_4
  rw [View.canon_unit_zero hz']
  simp only [View.ld_unit_zero (S := S2000x96) hz', View.ld_unit_zero (S := S2000x1) hz', View.ld_unit_zero (S := S1x96) hz']
  obtain ⟨-, -, -, -, -, -, -, -, e8, e9⟩ := idx3 t
  funext j
  show k3_pay1 (F := Ideal) (iblk3 V c 2 t) (iblk3 V c 3 t) (iblk3 V c 0 t) (iblk3 V c 1 t) j
    = (reluH (combH (V c main_v57) (V c main_v44) (V c main_v27) (V c main_v58))) (((cfg3.win 4).blk t).view.emb j)
  rw [bblk3 V c t]
  refine (pay3_rows _ _ _ _ _ _ _ (dblk3 V c t) (ablk3 V c t) (hblk3 V c t)).read j _ ?_ ?_
  · show win3_4.index t (0 : Fin 2) * 2000 + 1 * (j 0).val = _
    omega
  · show win3_4.index t (1 : Fin 2) * 96 + 1 * (j 1).val = _
    omega

/-- Membership in point t's block of the result, coordinate by coordinate. -/
theorem mem_blk3 (t : Fin cfg3.N) (i : S50000x96.Idx) :
    i ∈ ((cfg3.win 4).blk t).view.set ↔ ∀ a : Fin 2, win3_4.index t a * S2000x96.size a ≤ (i a).val
      ∧ (i a).val < win3_4.index t a * S2000x96.size a + S2000x96.size a := by
  show i ∈ ((View.whole main_v59).slice (win3_4.rect t)).set ↔ _
  rw [View.set_slice_whole, Rect.mem_set_unit]
  exact Iff.rfl

/-- Row r of the result lies in the block of point r / 2000: the 25 blocks cover the array. -/
theorem cover3 (i : S50000x96.Idx) :
    ∃ t : Fin cfg3.N, (cfg3.win 4).flush t = true ∧ i ∈ ((cfg3.win 4).blk t).view.set := by
  have hi0 : (i 0).val < 50000 := (i 0).isLt
  have hi1 : (i 1).val < 96 := (i 1).isLt
  have hlt : (i 0).val / 2000 < cfg3.N :=
    Nat.lt_of_lt_of_eq (by omega : (i 0).val / 2000 < 25) (rfl : 25 = cfg3.N)
  obtain ⟨-, -, -, -, -, -, -, -, e8, e9⟩ := idx3 ⟨(i 0).val / 2000, hlt⟩
  have e8' : win3_4.index ⟨(i 0).val / 2000, hlt⟩ (0 : Fin 2) = (i 0).val / 2000 := e8
  refine ⟨⟨(i 0).val / 2000, hlt⟩, flush3_4 _, ?_⟩
  rw [mem_blk3]
  intro a
  match a with
  | ⟨0, _⟩ =>
    show win3_4.index ⟨(i 0).val / 2000, _⟩ (0 : Fin 2) * 2000 ≤ (i 0).val
      ∧ (i 0).val < win3_4.index ⟨(i 0).val / 2000, _⟩ (0 : Fin 2) * 2000 + 2000
    omega
  | ⟨1, _⟩ =>
    show win3_4.index ⟨(i 0).val / 2000, _⟩ (1 : Fin 2) * 96 ≤ (i 1).val
      ∧ (i 1).val < win3_4.index ⟨(i 0).val / 2000, _⟩ (1 : Fin 2) * 96 + 96
    omega

/-- THE ARRAY the region leaves: the host's combination of the four arrays as the region finds them. -/
theorem region3 (c : Dev nD) :
    (dat3 V c).arrAt 4 cfg3.N = reluH (combH (V c main_v57) (V c main_v44) (V c main_v27) (V c main_v58)) :=
  (dat3 V c).arrAt_eq_of_cover 4 _ (fun t _ => flushed3 V c t) cover3

end

/-! ## Region 5: main_v75 = main_v73 + main_v60 · column(main_v27) + row(main_v74), one block of 2000 rows per grid point -/

/-- The body's stored value on a block of rows: the rows of the host's combination of the whole arrays. -/
theorem pay5_rows {off : Nat} (db : FVec Ideal S2000x1 .f32) (b : FVec Ideal S1x96 .f32) (ab hb : FVec Ideal S2000x96 .f32)
    (D : FVec Ideal S50000x1 .f32) (A H : FVec Ideal S50000x96 .f32)
    (hd : RowBlk (Mb := 2000) (M := 50000) (K := 1) off db D)
    (ha : RowBlk (Mb := 2000) (M := 50000) (K := 96) off ab A) (hh : RowBlk (Mb := 2000) (M := 50000) (K := 96) off hb H) :
    RowBlk (Mb := 2000) (M := 50000) (K := 96) off (k5_pay1 (F := Ideal) db b ab hb) (combH A H D b) := by
  unfold k5_pay1 combH
  refine RowBlk.add (RowBlk.add (ha.castSelf _) (RowBlk.mul (hh.castSelf _) (RowBlk.col (hd.castSelf _) _ _))) ?_
  · rw [shapeCast_self]
    exact RowBlk.bias b _ _

section
variable (V : (c : Dev nD) → (b : Ref sig .tc) → Buf (Elt Ideal) ((c : Thread nD τ).loc b))

/-- The index maps over the grid: point t takes block row t of the two matrices, of the column and of the result,
    and the whole bias row. -/
theorem idx5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- The aggregated messages' block at point t is their rows 2000·t … 2000·t + 1999. -/
theorem ablk5 (c : Dev nD) (t : Fin cfg5.N) :
    RowBlk (Mb := 2000) (M := 50000) (K := 96) (t.val * 2000) (iblk5 V c 0 t) (V c main_v73) := by
  obtain ⟨e0, e1, -⟩ := idx5 t
  refine RowBlk.of_read (fun y => ((cfg5.win 0).blk t).view.emb y) (fun y => ?_) (fun y => ?_) (fun y => rfl)
  · show win5_0.index t (0 : Fin 2) * 2000 + 1 * (y 0).val = _
    omega
  · show win5_0.index t (1 : Fin 2) * 96 + 1 * (y 1).val = _
    omega

/-- The transformed features' block at point t is their rows 2000·t … 2000·t + 1999. -/
theorem hblk5 (c : Dev nD) (t : Fin cfg5.N) :
    RowBlk (Mb := 2000) (M := 50000) (K := 96) (t.val * 2000) (iblk5 V c 1 t) (V c main_v60) := by
  obtain ⟨-, -, e2, e3, -⟩ := idx5 t
  refine RowBlk.of_read (fun y => ((cfg5.win 1).blk t).view.emb y) (fun y => ?_) (fun y => ?_) (fun y => rfl)
  · show win5_1.index t (0 : Fin 2) * 2000 + 1 * (y 0).val = _
    omega
  · show win5_1.index t (1 : Fin 2) * 96 + 1 * (y 1).val = _
    omega

/-- The per-node factor's block at point t is entries 2000·t … 2000·t + 1999 of the column. -/
theorem dblk5 (c : Dev nD) (t : Fin cfg5.N) :
    RowBlk (Mb := 2000) (M := 50000) (K := 1) (t.val * 2000) (iblk5 V c 2 t) (V c main_v27) := by
  obtain ⟨-, -, -, -, e4, e5, -⟩ := idx5 t
  refine RowBlk.of_read (fun y => ((cfg5.win 2).blk t).view.emb y) (fun y => ?_) (fun y => ?_) (fun y => rfl)
  · show win5_2.index t (0 : Fin 2) * 2000 + 1 * (y 0).val = _
    omega
  · show win5_2.index t (1 : Fin 2) * 1 + 1 * (y 1).val = _
    omega

/-- The bias row's block at every point is the whole row. -/
theorem bblk5 (c : Dev nD) (t : Fin cfg5.N) : (iblk5 V c 3 t : S1x96.Idx → EReal) = V c main_v74 := by
  obtain ⟨-, -, -, -, -, -, e6, e7, -⟩ := idx5 t
  funext y
  show V c main_v74 (((cfg5.win 3).blk t).view.emb y) = V c main_v74 y
  refine congrArg _ (funext fun a => Fin.ext ?_)
  match a with
  | ⟨0, _⟩ => show win5_3.index t (0 : Fin 2) * 1 + 1 * (y 0).val = (y 0).val; omega
  | ⟨1, _⟩ => show win5_3.index t (1 : Fin 2) * 96 + 1 * (y 1).val = (y 1).val; omega

/-- What point t writes back is block t of the host's combination of the arrays as the region finds them. -/
theorem flushed5 (c : Dev nD) (t : Fin cfg5.N) :
    (dat5 V c).flushed 4 t = ((cfg5.win 4).blk t).view.read (Elt Ideal)
      (combH (V c main_v73) (V c main_v60) (V c main_v27) (V c main_v74)) := by
  show (cfg5.win 4).cut (grid5.coords t) ((dat5 V c).after 4 t) = _
  rw [after5_4]
  unfold out5_4
  rw [View.canon_unit_zero hz']
  simp only [View.ld_unit_zero (S := S2000x96) hz', View.ld_unit_zero (S := S2000x1) hz', View.ld_unit_zero (S := S1x96) hz']
  obtain ⟨-, -, -, -, -, -, -, -, e8, e9⟩ := idx5 t
  funext j
  show k5_pay1 (F := Ideal) (iblk5 V c 2 t) (iblk5 V c 3 t) (iblk5 V c 0 t) (iblk5 V c 1 t) j
    = (combH (V c main_v73) (V c main_v60) (V c main_v27) (V c main_v74)) (((cfg5.win 4).blk t).view.emb j)
  rw [bblk5 V c t]
  refine (pay5_rows _ _ _ _ _ _ _ (dblk5 V c t) (ablk5 V c t) (hblk5 V c t)).read j _ ?_ ?_
  · show win5_4.index t (0 : Fin 2) * 2000 + 1 * (j 0).val = _
    omega
  · show win5_4.index t (1 : Fin 2) * 96 + 1 * (j 1).val = _
    omega

/-- Membership in point t's block of the result, coordinate by coordinate. -/
theorem mem_blk5 (t : Fin cfg5.N) (i : S50000x96.Idx) :
    i ∈ ((cfg5.win 4).blk t).view.set ↔ ∀ a : Fin 2, win5_4.index t a * S2000x96.size a ≤ (i a).val
      ∧ (i a).val < win5_4.index t a * S2000x96.size a + S2000x96.size a := by
  show i ∈ ((View.whole main_v75).slice (win5_4.rect t)).set ↔ _
  rw [View.set_slice_whole, Rect.mem_set_unit]
  exact Iff.rfl

/-- Row r of the result lies in the block of point r / 2000: the 25 blocks cover the array. -/
theorem cover5 (i : S50000x96.Idx) :
    ∃ t : Fin cfg5.N, (cfg5.win 4).flush t = true ∧ i ∈ ((cfg5.win 4).blk t).view.set := by
  have hi0 : (i 0).val < 50000 := (i 0).isLt
  have hi1 : (i 1).val < 96 := (i 1).isLt
  have hlt : (i 0).val / 2000 < cfg5.N :=
    Nat.lt_of_lt_of_eq (by omega : (i 0).val / 2000 < 25) (rfl : 25 = cfg5.N)
  obtain ⟨-, -, -, -, -, -, -, -, e8, e9⟩ := idx5 ⟨(i 0).val / 2000, hlt⟩
  have e8' : win5_4.index ⟨(i 0).val / 2000, hlt⟩ (0 : Fin 2) = (i 0).val / 2000 := e8
  refine ⟨⟨(i 0).val / 2000, hlt⟩, flush5_4 _, ?_⟩
  rw [mem_blk5]
  intro a
  match a with
  | ⟨0, _⟩ =>
    show win5_4.index ⟨(i 0).val / 2000, _⟩ (0 : Fin 2) * 2000 ≤ (i 0).val
      ∧ (i 0).val < win5_4.index ⟨(i 0).val / 2000, _⟩ (0 : Fin 2) * 2000 + 2000
    omega
  | ⟨1, _⟩ =>
    show win5_4.index ⟨(i 0).val / 2000, _⟩ (1 : Fin 2) * 96 ≤ (i 1).val
      ∧ (i 1).val < win5_4.index ⟨(i 0).val / 2000, _⟩ (1 : Fin 2) * 96 + 96
    omega

/-- THE ARRAY the region leaves: the host's combination of the four arrays as the region finds them. -/
theorem region5 (c : Dev nD) :
    (dat5 V c).arrAt 4 cfg5.N = combH (V c main_v73) (V c main_v60) (V c main_v27) (V c main_v74) :=
  (dat5 V c).arrAt_eq_of_cover 4 _ (fun t _ => flushed5 V c t) cover5

end

end Cert.Gcn

end
-- ==== Proof.FoldB.lean ====
/-
  The first layer, and the second layer's product, in the kernel program's buffers, as the reference's own stages.

  The first region leaves the product of the features with the first weight matrix; the host then gathers that product's
  rows at the edges' sources, scales each by the edge's factor and adds it into the row of the edge's destination — the
  same gather, product and scatter-add, in the same order, as the reference's —, and lays the bias out as a row (by a
  reshape, where the reference broadcasts along a new unit axis: one and the same row). The second region adds the
  aggregated messages, the self-loop term and the bias and clamps at zero, as the reference's host operations do on whole
  arrays; the third multiplies the result by the second weight matrix. Buffers no segment writes keep their contents.
-/
import proofs.«178449_j31301721653775_1_alg».proof.Proof.FoldA
import proofs.«178449_j31301721653775_1_alg».proof.Proof.MatmulRegions
import proofs.«178449_j31301721653775_1_alg».proof.Proof.CombineRegions

set_option maxRecDepth 16384

noncomputable section

namespace Cert.Gcn

open Cert.KernelIdeal Cert.KernelIdeal.Gen
open Idealize.ShloMosaic Idealize.ShloMosaic.TcCoe Idealize.ShloMosaic.ValueIdx Idealize.SL.Sem Idealize.ShloMosaic.StableHlo
open Cert.Lib.DenseLayer

variable (m : (ℓ : Loc nD τ sig) → Buf (Elt Ideal) ℓ) (ρ : Dev nD → PrngReg) (c : Dev nD)

/-! ## After region 0 (the first product) -/

theorem at2_h1 : W2 m ρ c (Proc.devRef .tc main_v28) = Cert.ReferenceIdeal.Read.val_main_v4 (F := Ideal) (m ((c : Thread nD τ).loc main_arg0)) (m ((c : Thread nD τ).loc main_arg1)) := by
  refine (W2_arr m ρ c 2).trans ?_
  refine (region0 (V1 m ρ) c).trans ?_
  show mmH (W1 m ρ c (Proc.devRef .tc main_arg0)) (W1 m ρ c (Proc.devRef .tc main_arg1)) = _
  rw [at1_arg0, at1_arg1]
  rfl

theorem at2_src : W2 m ρ c (Proc.devRef .tc main_v1) = Cert.ReferenceIdeal.Read.val_main_v1 (F := Ideal) (m ((c : Thread nD τ).loc main_arg7)) :=
  (W2_of_ne m ρ c main_v1 (by decide)).trans (at1_src m ρ c)

theorem at2_dst : W2 m ρ c (Proc.devRef .tc main_v3) = Cert.ReferenceIdeal.Read.val_main_v3 (F := Ideal) (m ((c : Thread nD τ).loc main_arg7)) :=
  (W2_of_ne m ρ c main_v3 (by decide)).trans (at1_dst m ρ c)

theorem at2_norm : W2 m ρ c (Proc.devRef .tc main_v25) = Cert.ReferenceIdeal.Read.val_main_v26 (F := Ideal) (m ((c : Thread nD τ).loc main_arg7)) :=
  (W2_of_ne m ρ c main_v25 (by decide)).trans (at1_norm m ρ c)

theorem at2_col : W2 m ρ c (Proc.devRef .tc main_v27) = Cert.ReferenceIdeal.Read.val_main_v41 (F := Ideal) (m ((c : Thread nD τ).loc main_arg7)) :=
  (W2_of_ne m ρ c main_v27 (by decide)).trans (at1_col m ρ c)

theorem at2_arg2 : W2 m ρ c (Proc.devRef .tc main_arg2) = (m ((c : Thread nD τ).loc main_arg2)) :=
  (W2_of_ne m ρ c main_arg2 (by decide)).trans (at1_arg2 m ρ c)

theorem at2_arg3 : W2 m ρ c (Proc.devRef .tc main_arg3) = (m ((c : Thread nD τ).loc main_arg3)) :=
  (W2_of_ne m ρ c main_arg3 (by decide)).trans (at1_arg3 m ρ c)

theorem at2_arg4 : W2 m ρ c (Proc.devRef .tc main_arg4) = (m ((c : Thread nD τ).loc main_arg4)) :=
  (W2_of_ne m ρ c main_arg4 (by decide)).trans (at1_arg4 m ρ c)

theorem at2_arg5 : W2 m ρ c (Proc.devRef .tc main_arg5) = (m ((c : Thread nD τ).loc main_arg5)) :=
  (W2_of_ne m ρ c main_arg5 (by decide)).trans (at1_arg5 m ρ c)

theorem at2_arg6 : W2 m ρ c (Proc.devRef .tc main_arg6) = (m ((c : Thread nD τ).loc main_arg6)) :=
  (W2_of_ne m ρ c main_arg6 (by decide)).trans (at1_arg6 m ρ c)

/-! ## After the second stretch of host operations (the first layer's messages, aggregated; its bias as a row) -/

theorem at3_agg1 : W3 m ρ c (Proc.devRef .tc main_v41) = Cert.ReferenceIdeal.Read.val_main_v39 (F := Ideal) (m ((c : Thread nD τ).loc main_arg0)) (m ((c : Thread nD τ).loc main_arg1)) (m ((c : Thread nD τ).loc main_arg7)) := by
  dsimp only [W3, hostOps1]
  after_results_simp
  rw [at2_src, at2_dst, at2_norm, at2_h1]
  rfl

theorem at3_bias1 : W3 m ρ c (Proc.devRef .tc main_v42) = Cert.ReferenceIdeal.Read.val_main_v45 (F := Ideal) (m ((c : Thread nD τ).loc main_arg2)) := by
  dsimp only [W3, hostOps1]
  after_results_simp
  rw [at2_arg2]
  exact addUnit_eq_bcast (n := 96) (by decide) (m ((c : Thread nD τ).loc main_arg2)) _ _

theorem at3_h1 : W3 m ρ c (Proc.devRef .tc main_v28) = Cert.ReferenceIdeal.Read.val_main_v4 (F := Ideal) (m ((c : Thread nD τ).loc main_arg0)) (m ((c : Thread nD τ).loc main_arg1)) := by
  dsimp only [W3, hostOps1]
  after_results_simp
  exact at2_h1 m ρ c

theorem at3_src : W3 m ρ c (Proc.devRef .tc main_v1) = Cert.ReferenceIdeal.Read.val_main_v1 (F := Ideal) (m ((c : Thread nD τ).loc main_arg7)) := by
  dsimp only [W3, hostOps1]
  after_results_simp
  exact at2_src m ρ c

theorem at3_dst : W3 m ρ c (Proc.devRef .tc main_v3) = Cert.ReferenceIdeal.Read.val_main_v3 (F := Ideal) (m ((c : Thread nD τ).loc main_arg7)) := by
  dsimp only [W3, hostOps1]
  after_results_simp
  exact at2_dst m ρ c

theorem at3_norm : W3 m ρ c (Proc.devRef .tc main_v25) = Cert.ReferenceIdeal.Read.val_main_v26 (F := Ideal) (m ((c : Thread nD τ).loc main_arg7)) := by
  dsimp only [W3, hostOps1]
  after_results_simp
  exact at2_norm m ρ c

theorem at3_col : W3 m ρ c (Proc.devRef .tc main_v27) = Cert.ReferenceIdeal.Read.val_main_v41 (F := Ideal) (m ((c : Thread nD τ).loc main_arg7)) := by
  dsimp only [W3, hostOps1]
  after_results_simp
  exact at2_col m ρ c

theorem at3_arg3 : W3 m ρ c (Proc.devRef .tc main_arg3) = (m ((c : Thread nD τ).loc main_arg3)) := by
  dsimp only [W3, hostOps1]
  after_results_simp
  exact at2_arg3 m ρ c

theorem at3_arg4 : W3 m ρ c (Proc.devRef .tc main_arg4) = (m ((c : Thread nD τ).loc main_arg4)) := by
  dsimp only [W3, hostOps1]
  after_results_simp
  exact at2_arg4 m ρ c

theorem at3_arg5 : W3 m ρ c (Proc.devRef .tc main_arg5) = (m ((c : Thread nD τ).loc main_arg5)) := by
  dsimp only [W3, hostOps1]
  after_results_simp
  exact at2_arg5 m ρ c

theorem at3_arg6 : W3 m ρ c (Proc.devRef .tc main_arg6) = (m ((c : Thread nD τ).loc main_arg6)) := by
  dsimp only [W3, hostOps1]
  after_results_simp
  exact at2_arg6 m ρ c

/-! ## After region 1 (the first layer's output) -/

theorem at4_x2 : W4 m ρ c (Proc.devRef .tc main_v43) = Cert.ReferenceIdeal.Read.val_main_v48 (F := Ideal) (m ((c : Thread nD τ).loc main_arg0)) (m ((c : Thread nD τ).loc main_arg1)) (m ((c : Thread nD τ).loc main_arg2)) (m ((c : Thread nD τ).loc main_arg7)) := by
  refine (W4_arr m ρ c 4).trans ?_
  refine (region1 (V3 m ρ) c).trans ?_
  show reluH (combH (W3 m ρ c (Proc.devRef .tc main_v41)) (W3 m ρ c (Proc.devRef .tc main_v28)) (W3 m ρ c (Proc.devRef .tc main_v27)) (W3 m ρ c (Proc.devRef .tc main_v42))) = _
  rw [at3_agg1, at3_h1, at3_col, at3_bias1]
  rfl

theorem at4_src : W4 m ρ c (Proc.devRef .tc main_v1) = Cert.ReferenceIdeal.Read.val_main_v1 (F := Ideal) (m ((c : Thread nD τ).loc main_arg7)) :=
  (W4_of_ne m ρ c main_v1 (by decide)).trans (at3_src m ρ c)

theorem at4_dst : W4 m ρ c (Proc.devRef .tc main_v3) = Cert.ReferenceIdeal.Read.val_main_v3 (F := Ideal) (m ((c : Thread nD τ).loc main_arg7)) :=
  (W4_of_ne m ρ c main_v3 (by decide)).trans (at3_dst m ρ c)

theorem at4_norm : W4 m ρ c (Proc.devRef .tc main_v25) = Cert.ReferenceIdeal.Read.val_main_v26 (F := Ideal) (m ((c : Thread nD τ).loc main_arg7)) :=
  (W4_of_ne m ρ c main_v25 (by decide)).trans (at3_norm m ρ c)

theorem at4_arg3 : W4 m ρ c (Proc.devRef .tc main_arg3) = (m ((c : Thread nD τ).loc main_arg3)) :=
  (W4_of_ne m ρ c main_arg3 (by decide)).trans (at3_arg3 m ρ c)

theorem at4_arg4 : W4 m ρ c (Proc.devRef .tc main_arg4) = (m ((c : Thread nD τ).loc main_arg4)) :=
  (W4_of_ne m ρ c main_arg4 (by decide)).trans (at3_arg4 m ρ c)

theorem at4_arg5 : W4 m ρ c (Proc.devRef .tc main_arg5) = (m ((c : Thread nD τ).loc main_arg5)) :=
  (W4_of_ne m ρ c main_arg5 (by decide)).trans (at3_arg5 m ρ c)

theorem at4_arg6 : W4 m ρ c (Proc.devRef .tc main_arg6) = (m ((c : Thread nD τ).loc main_arg6)) :=
  (W4_of_ne m ρ c main_arg6 (by decide)).trans (at3_arg6 m ρ c)

theorem at4_col : W4 m ρ c (Proc.devRef .tc main_v27) = Cert.ReferenceIdeal.Read.val_main_v41 (F := Ideal) (m ((c : Thread nD τ).loc main_arg7)) :=
  ((W4_arr m ρ c 2).trans (((dat1 (V3 m ρ) c).arrAt_in 2 rfl _).trans (A_eq1 (V3 m ρ) c 2))).trans
    (at3_col m ρ c)

/-! ## After region 2 (the second product) -/

theorem at5_h2 : W5 m ρ c (Proc.devRef .tc main_v44) = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg7)) := by
  refine (W5_arr m ρ c 2).trans ?_
  refine (region2 (V4 m ρ) c).trans ?_
  show mmH (W4 m ρ c (Proc.devRef .tc main_v43)) (W4 m ρ c (Proc.devRef .tc main_arg3)) = _
  rw [at4_x2, at4_arg3]
  rfl

theorem at5_src : W5 m ρ c (Proc.devRef .tc main_v1) = Cert.ReferenceIdeal.Read.val_main_v1 (F := Ideal) (m ((c : Thread nD τ).loc main_arg7)) :=
  (W5_of_ne m ρ c main_v1 (by decide)).trans (at4_src m ρ c)

theorem at5_dst : W5 m ρ c (Proc.devRef .tc main_v3) = Cert.ReferenceIdeal.Read.val_main_v3 (F := Ideal) (m ((c : Thread nD τ).loc main_arg7)) :=
  (W5_of_ne m ρ c main_v3 (by decide)).trans (at4_dst m ρ c)

theorem at5_norm : W5 m ρ c (Proc.devRef .tc main_v25) = Cert.ReferenceIdeal.Read.val_main_v26 (F := Ideal) (m ((c : Thread nD τ).loc main_arg7)) :=
  (W5_of_ne m ρ c main_v25 (by decide)).trans (at4_norm m ρ c)

theorem at5_col : W5 m ρ c (Proc.devRef .tc main_v27) = Cert.ReferenceIdeal.Read.val_main_v41 (F := Ideal) (m ((c : Thread nD τ).loc main_arg7)) :=
  (W5_of_ne m ρ c main_v27 (by decide)).trans (at4_col m ρ c)

theorem at5_arg4 : W5 m ρ c (Proc.devRef .tc main_arg4) = (m ((c : Thread nD τ).loc main_arg4)) :=
  (W5_of_ne m ρ c main_arg4 (by decide)).trans (at4_arg4 m ρ c)

theorem at5_arg5 : W5 m ρ c (Proc.devRef .tc main_arg5) = (m ((c : Thread nD τ).loc main_arg5)) :=
  (W5_of_ne m ρ c main_arg5 (by decide)).trans (at4_arg5 m ρ c)

theorem at5_arg6 : W5 m ρ c (Proc.devRef .tc main_arg6) = (m ((c : Thread nD τ).loc main_arg6)) :=
  (W5_of_ne m ρ c main_arg6 (by decide)).trans (at4_arg6 m ρ c)

end Cert.Gcn

end
-- ==== Proof.FoldC.lean ====
/-
  The second layer, and the third layer's product, in the kernel program's buffers, as the reference's own stages.

  The same three steps as in the first layer, from the first layer's output: the host gathers the second product's rows at
  the edges' sources, scales and scatter-adds them, and lays the second bias out as a row; the fourth region combines and
  clamps; the fifth multiplies by the third weight matrix. The kernel program computes the nodes' factors once and
  reuses them, where the reference computes them again in every layer by the same operations on the same edge list:
  the same arrays.
-/
import proofs.«178449_j31301721653775_1_alg».proof.Proof.FoldB

set_option maxRecDepth 16384

noncomputable section

namespace Cert.Gcn

open Cert.KernelIdeal Cert.KernelIdeal.Gen
open Idealize.ShloMosaic Idealize.ShloMosaic.TcCoe Idealize.ShloMosaic.ValueIdx Idealize.SL.Sem Idealize.ShloMosaic.StableHlo
open Cert.Lib.DenseLayer

variable (m : (ℓ : Loc nD τ sig) → Buf (Elt Ideal) ℓ) (ρ : Dev nD → PrngReg) (c : Dev nD)

/-! ## After the third stretch of host operations -/

theorem at6_agg2 : W6 m ρ c (Proc.devRef .tc main_v57) = Cert.ReferenceIdeal.Read.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg7)) := by
  dsimp only [W6, hostOps3]
  after_results_simp
  rw [at5_src, at5_dst, at5_norm, at5_h2]
  rfl

theorem at6_bias2 : W6 m ρ c (Proc.devRef .tc main_v58) = Cert.ReferenceIdeal.Read.val_main_v90 (F := Ideal) (m ((c : Thread nD τ).loc main_arg4)) := by
  dsimp only [W6, hostOps3]
  after_results_simp
  rw [at5_arg4]
  exact addUnit_eq_bcast (n := 96) (by decide) (m ((c : Thread nD τ).loc main_arg4)) _ _

theorem at6_h2 : W6 m ρ c (Proc.devRef .tc main_v44) = Cert.ReferenceIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg7)) := by
  dsimp only [W6, hostOps3]
  after_results_simp
  exact at5_h2 m ρ c

theorem at6_src : W6 m ρ c (Proc.devRef .tc main_v1) = Cert.ReferenceIdeal.Read.val_main_v1 (F := Ideal) (m ((c : Thread nD τ).loc main_arg7)) := by
  dsimp only [W6, hostOps3]
  after_results_simp
  exact at5_src m ρ c

theorem at6_dst : W6 m ρ c (Proc.devRef .tc main_v3) = Cert.ReferenceIdeal.Read.val_main_v3 (F := Ideal) (m ((c : Thread nD τ).loc main_arg7)) := by
  dsimp only [W6, hostOps3]
  after_results_simp
  exact at5_dst m ρ c

theorem at6_norm : W6 m ρ c (Proc.devRef .tc main_v25) = Cert.ReferenceIdeal.Read.val_main_v26 (F := Ideal) (m ((c : Thread nD τ).loc main_arg7)) := by
  dsimp only [W6, hostOps3]
  after_results_simp
  exact at5_norm m ρ c

theorem at6_col : W6 m ρ c (Proc.devRef .tc main_v27) = Cert.ReferenceIdeal.Read.val_main_v41 (F := Ideal) (m ((c : Thread nD τ).loc main_arg7)) := by
  dsimp only [W6, hostOps3]
  after_results_simp
  exact at5_col m ρ c

theorem at6_arg5 : W6 m ρ c (Proc.devRef .tc main_arg5) = (m ((c : Thread nD τ).loc main_arg5)) := by
  dsimp only [W6, hostOps3]
  after_results_simp
  exact at5_arg5 m ρ c

theorem at6_arg6 : W6 m ρ c (Proc.devRef .tc main_arg6) = (m ((c : Thread nD τ).loc main_arg6)) := by
  dsimp only [W6, hostOps3]
  after_results_simp
  exact at5_arg6 m ρ c

/-! ## After region 3 (the second layer's output) -/

theorem at7_x3 : W7 m ρ c (Proc.devRef .tc main_v59) = Cert.ReferenceIdeal.Read.val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) := by
  refine (W7_arr m ρ c 4).trans ?_
  refine (region3 (V6 m ρ) c).trans ?_
  show reluH (combH (W6 m ρ c (Proc.devRef .tc main_v57)) (W6 m ρ c (Proc.devRef .tc main_v44)) (W6 m ρ c (Proc.devRef .tc main_v27)) (W6 m ρ c (Proc.devRef .tc main_v58))) = _
  rw [at6_agg2, at6_h2, at6_col, at6_bias2]
  rfl

theorem at7_src : W7 m ρ c (Proc.devRef .tc main_v1) = Cert.ReferenceIdeal.Read.val_main_v1 (F := Ideal) (m ((c : Thread nD τ).loc main_arg7)) :=
  (W7_of_ne m ρ c main_v1 (by decide)).trans (at6_src m ρ c)

theorem at7_dst : W7 m ρ c (Proc.devRef .tc main_v3) = Cert.ReferenceIdeal.Read.val_main_v3 (F := Ideal) (m ((c : Thread nD τ).loc main_arg7)) :=
  (W7_of_ne m ρ c main_v3 (by decide)).trans (at6_dst m ρ c)

theorem at7_norm : W7 m ρ c (Proc.devRef .tc main_v25) = Cert.ReferenceIdeal.Read.val_main_v26 (F := Ideal) (m ((c : Thread nD τ).loc main_arg7)) :=
  (W7_of_ne m ρ c main_v25 (by decide)).trans (at6_norm m ρ c)

theorem at7_arg5 : W7 m ρ c (Proc.devRef .tc main_arg5) = (m ((c : Thread nD τ).loc main_arg5)) :=
  (W7_of_ne m ρ c main_arg5 (by decide)).trans (at6_arg5 m ρ c)

theorem at7_arg6 : W7 m ρ c (Proc.devRef .tc main_arg6) = (m ((c : Thread nD τ).loc main_arg6)) :=
  (W7_of_ne m ρ c main_arg6 (by decide)).trans (at6_arg6 m ρ c)

theorem at7_col : W7 m ρ c (Proc.devRef .tc main_v27) = Cert.ReferenceIdeal.Read.val_main_v41 (F := Ideal) (m ((c : Thread nD τ).loc main_arg7)) :=
  ((W7_arr m ρ c 2).trans (((dat3 (V6 m ρ) c).arrAt_in 2 rfl _).trans (A_eq3 (V6 m ρ) c 2))).trans
    (at6_col m ρ c)

/-! ## After region 4 (the third product) -/

theorem at8_h3 : W8 m ρ c (Proc.devRef .tc main_v60) = Cert.ReferenceIdeal.Read.val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := by
  refine (W8_arr m ρ c 2).trans ?_
  refine (region4 (V7 m ρ) c).trans ?_
  show mmH (W7 m ρ c (Proc.devRef .tc main_v59)) (W7 m ρ c (Proc.devRef .tc main_arg5)) = _
  rw [at7_x3, at7_arg5]
  rfl

theorem at8_src : W8 m ρ c (Proc.devRef .tc main_v1) = Cert.ReferenceIdeal.Read.val_main_v1 (F := Ideal) (m ((c : Thread nD τ).loc main_arg7)) :=
  (W8_of_ne m ρ c main_v1 (by decide)).trans (at7_src m ρ c)

theorem at8_dst : W8 m ρ c (Proc.devRef .tc main_v3) = Cert.ReferenceIdeal.Read.val_main_v3 (F := Ideal) (m ((c : Thread nD τ).loc main_arg7)) :=
  (W8_of_ne m ρ c main_v3 (by decide)).trans (at7_dst m ρ c)

theorem at8_norm : W8 m ρ c (Proc.devRef .tc main_v25) = Cert.ReferenceIdeal.Read.val_main_v26 (F := Ideal) (m ((c : Thread nD τ).loc main_arg7)) :=
  (W8_of_ne m ρ c main_v25 (by decide)).trans (at7_norm m ρ c)

theorem at8_col : W8 m ρ c (Proc.devRef .tc main_v27) = Cert.ReferenceIdeal.Read.val_main_v41 (F := Ideal) (m ((c : Thread nD τ).loc main_arg7)) :=
  (W8_of_ne m ρ c main_v27 (by decide)).trans (at7_col m ρ c)

theorem at8_arg6 : W8 m ρ c (Proc.devRef .tc main_arg6) = (m ((c : Thread nD τ).loc main_arg6)) :=
  (W8_of_ne m ρ c main_arg6 (by decide)).trans (at7_arg6 m ρ c)

end Cert.Gcn

end
-- ==== Proof.FoldD.lean ====
/-
  The third layer: the kernel program's result array is the reference's result, as one function of the arguments.

  The host gathers the third product's rows at the edges' sources, scales and scatter-adds them, and lays the third bias
  out as a row; the last region adds the aggregated messages, the self-loop term and the bias (no clamp in the last
  layer). Read through the whole fold, the result buffer at the last boundary holds the reference's last stage of the
  eight argument arrays as launched.
-/
import proofs.«178449_j31301721653775_1_alg».proof.Proof.FoldC

set_option maxRecDepth 16384

noncomputable section

namespace Cert.Gcn

open Cert.KernelIdeal Cert.KernelIdeal.Gen
open Idealize.ShloMosaic Idealize.ShloMosaic.TcCoe Idealize.ShloMosaic.ValueIdx Idealize.SL.Sem Idealize.ShloMosaic.StableHlo
open Cert.Lib.DenseLayer

variable (m : (ℓ : Loc nD τ sig) → Buf (Elt Ideal) ℓ) (ρ : Dev nD → PrngReg) (c : Dev nD)

/-! ## After the fourth stretch of host operations -/

theorem at9_agg3 : W9 m ρ c (Proc.devRef .tc main_v73) = Cert.ReferenceIdeal.Read.val_main_v129 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := by
  dsimp only [W9, hostOps5]
  after_results_simp
  rw [at8_src, at8_dst, at8_norm, at8_h3]
  rfl

theorem at9_bias3 : W9 m ρ c (Proc.devRef .tc main_v74) = Cert.ReferenceIdeal.Read.val_main_v135 (F := Ideal) (m ((c : Thread nD τ).loc main_arg6)) := by
  dsimp only [W9, hostOps5]
  after_results_simp
  rw [at8_arg6]
  exact addUnit_eq_bcast (n := 96) (by decide) (m ((c : Thread nD τ).loc main_arg6)) _ _

theorem at9_h3 : W9 m ρ c (Proc.devRef .tc main_v60) = Cert.ReferenceIdeal.Read.val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := by
  dsimp only [W9, hostOps5]
  after_results_simp
  exact at8_h3 m ρ c

theorem at9_col : W9 m ρ c (Proc.devRef .tc main_v27) = Cert.ReferenceIdeal.Read.val_main_v41 (F := Ideal) (m ((c : Thread nD τ).loc main_arg7)) := by
  dsimp only [W9, hostOps5]
  after_results_simp
  exact at8_col m ρ c

/-! ## After region 5: the result -/

/-- The result buffer at the last boundary of the kernel program is the reference's last stage of the arguments. -/
theorem result_eq : W10 m ρ c (Proc.devRef .tc main_v75)
    = Cert.ReferenceIdeal.Read.val_main_v137 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W10_arr m ρ c 4).trans ?_
  refine (region5 (V9 m ρ) c).trans ?_
  show combH (W9 m ρ c (Proc.devRef .tc main_v73)) (W9 m ρ c (Proc.devRef .tc main_v60)) (W9 m ρ c (Proc.devRef .tc main_v27)) (W9 m ρ c (Proc.devRef .tc main_v74)) = _
  rw [at9_agg3, at9_h3, at9_col, at9_bias3]
  rfl

end Cert.Gcn

end
-- ==== Proof.lean ====
/-
  A three-layer graph convolution on 50000 nodes, 800000 edges and 96 features: the kernel program against its
  reference, at the extended reals.

  Both programs compute, three times over, out = agg + h · d² + b, where h = x · W is the layer's linear map of the
  node features, d the inverse square root of each node's degree (edges into it, plus one), agg the sum over the
  edges into each node of the source node's row of h scaled by the product of the two end points' factors, and b the
  bias; the first two layers then take the maximum with 0. The reference does all of it by whole-array host operations.
  The kernel program does the edge work — the degrees, the gathers, the scatter-adds — by the very same host operations
  in the very same order, and does the two dense steps of each layer in pipelined regions, 2000 rows per grid point:
  the product x · W on the matrix unit (operands narrowed to a shorter float format, which changes nothing at the extended
  reals, into a zero accumulator), and the combination agg + h · d² + b with the same grouping as the reference's.
  A product's row depends on the same row of the left factor only, and the combination acts entry by entry, so each
  region leaves exactly the array the reference's whole-array operation makes of the same inputs. Hence the two
  programs' results are one and the same function of the eight arguments; no law of arithmetic is used beyond that, and
  no finiteness is asked of any input. The kernel program computes the nodes' factors once where the reference computes
  them in every layer: the same arrays.

  Three of the five claims are about running: each program terminates without a fault and leaves its arguments as
  launched (the two kernel programs by the generated frame, the reference by its generated run). The idealized kernel
  program is the printed one read at the extended reals (nothing was rewritten, so there is nothing to preserve).
-/
import proofs.«178449_j31301721653775_1_alg».proof.Defs
import proofs.«178449_j31301721653775_1_alg».proof.Proof.Gen.Kernel
import proofs.«178449_j31301721653775_1_alg».proof.Proof.Gen.Kernel.Frame
import proofs.«178449_j31301721653775_1_alg».proof.Proof.Gen.KernelIdeal
import proofs.«178449_j31301721653775_1_alg».proof.Proof.Gen.KernelIdeal.Frame
import proofs.«178449_j31301721653775_1_alg».proof.Proof.Gen.ReferenceIdeal
import proofs.«178449_j31301721653775_1_alg».proof.Proof.Gen.ReferenceIdeal.Run
import proofs.«178449_j31301721653775_1_alg».proof.Proof.Gen.ReferenceIdeal.Read
import proofs.«178449_j31301721653775_1_alg».proof.Proof.Gen.Pre_finite_inputs
import proofs.«178449_j31301721653775_1_alg».proof.Proof.KernelRun
import proofs.«178449_j31301721653775_1_alg».proof.Proof.FoldD
import Idealize.ShloMosaic.Adequacy
import Idealize.ShloMosaic.Init

noncomputable section

namespace Cert.Proof

open Idealize.ShloMosaic Idealize.SL.Sem

/-- The printed kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the same result array: the kernel program's
    result buffer at its last boundary is the reference's last stage of the arguments. -/
theorem algebraic : Cert.algebraic_KernelIdeal_ReferenceIdeal := by
  intro m ρ m' ρ' _ hagree
  refine ⟨fun c => Cert.KernelIdeal.Gen.W10 m ρ c (Proc.devRef .tc Cert.KernelIdeal.main_v75),
    Cert.KernelIdeal.RunValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v137_eq, (hagree c).1, (hagree c).2.1, (hagree c).2.2.1, (hagree c).2.2.2.1, (hagree c).2.2.2.2.1, (hagree c).2.2.2.2.2.1, (hagree c).2.2.2.2.2.2.1, (hagree c).2.2.2.2.2.2.2]
  exact (Cert.Gcn.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
